-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S3x16x64 : Shape := ⟨3, ![3, 16, 64]⟩
abbrev S3x64 : Shape := ⟨2, ![3, 64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x16x64 : S_.BroadcastsInDim S3x16x64 (![] : Fin 0 → Fin S3x16x64.rank)
  reducesTo_S3x16x64_S_d0_1_2 : S3x16x64.ReducesTo [0, 1, 2] S_
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128 .f32) (main_arg9 : FVec F S128x2 .f32) (main_arg10 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg9
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S3x16x64 .f32) (main_arg6 : FVec F S3x64 .f32) (main_arg7 : FVec F S64x128 .f32) (main_arg8 : FVec F S128 .f32) (main_arg9 : FVec F S128x2 .f32) (main_arg10 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x16x64 .f32 := Host.absf main_arg5
  let main_cst_6 : FVec F S_ .f32 := constant S_ .f32 0x7F800000#32
  let main_v20 : FVec F S3x16x64 .f32 := broadcastInDim S3x16x64 ![] bcast_S_S3x16x64 main_cst_6
  let main_v21 : IVec S3x16x64 1 := cmpf .olt main_v19 main_v20
  let main_c_7 : IVec S_ 1 := constantI S_ 1 1#1
  let main_v22 : IVec S_ 1 := (fun x v => Host.reduce IntOp.andi x v reducesTo_S3x16x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x16 .f32) (main_arg3 : FVec F S64x64 .f32) (main_arg4 : FVec F S64 .f32) (main_arg5 : FVec F S3x16x64 .f32) (main_arg6 : FVec F S3x64 .f32) (main_arg7 : FVec F S64x128 .f32) (main_arg8 : FVec F S128 .f32) (main_arg9 : FVec F S128x2 .f32) (main_arg10 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S3x16x64 : Shape := ⟨3, ![3, 16, 64]⟩
abbrev S3x64 : Shape := ⟨2, ![3, 64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S1x64 : Shape := ⟨2, ![1, 64]⟩
abbrev S1x128 : Shape := ⟨2, ![1, 128]⟩
abbrev S1x2 : Shape := ⟨2, ![1, 2]⟩
abbrev S_ : Shape := ⟨0, ![]⟩
abbrev S800000x1 : Shape := ⟨2, ![800000, 1]⟩
abbrev S800000x64 : Shape := ⟨2, ![800000, 64]⟩
abbrev S1x16x64 : Shape := ⟨3, ![1, 16, 64]⟩
abbrev S16x64 : Shape := ⟨2, ![16, 64]⟩
abbrev S8000x64 : Shape := ⟨2, ![8000, 64]⟩
abbrev S8000x16 : Shape := ⟨2, ![8000, 16]⟩
abbrev S10000x64 : Shape := ⟨2, ![10000, 64]⟩
abbrev S50000x2 : Shape := ⟨2, ![50000, 2]⟩
abbrev S10000x2 : Shape := ⟨2, ![10000, 2]⟩
abbrev S10000x128 : Shape := ⟨2, ![10000, 128]⟩

abbrev nBuf : Space → Nat
  | .hbm => 79
  | .vmem => 56
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S64x64, .f32⟩
  | .hbm, ⟨4, _⟩ => ⟨S64, .f32⟩
  | .hbm, ⟨5, _⟩ => ⟨S3x16x64, .f32⟩
  | .hbm, ⟨6, _⟩ => ⟨S3x64, .f32⟩
  | .hbm, ⟨7, _⟩ => ⟨S64x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S1x64, .f32⟩
  | .hbm, ⟨16, _⟩ => ⟨S1x128, .f32⟩
  | .hbm, ⟨17, _⟩ => ⟨S1x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S1x16x64, .f32⟩
  | .hbm, ⟨28, _⟩ => ⟨S16x64, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S1x16x64, .f32⟩
  | .hbm, ⟨48, _⟩ => ⟨S16x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000x64, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S1x16x64, .f32⟩
  | .hbm, ⟨68, _⟩ => ⟨S16x64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S50000x2, .f32⟩
  | .local _ .vmem, ⟨0, _⟩ => ⟨S8000x64, .f32⟩
  | .local _ .vmem, ⟨1, _⟩ => ⟨S8000x64, .f32⟩
  | .local _ .vmem, ⟨2, _⟩ => ⟨S8000x16, .f32⟩
  | .local _ .vmem, ⟨3, _⟩ => ⟨S8000x16, .f32⟩
  | .local _ .vmem, ⟨4, _⟩ => ⟨S16x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S8000x64, .f32⟩
  | .local _ .vmem, ⟨17, _⟩ => ⟨S8000x64, .f32⟩
  | .local _ .vmem, ⟨18, _⟩ => ⟨S8000x16, .f32⟩
  | .local _ .vmem, ⟨19, _⟩ => ⟨S8000x16, .f32⟩
  | .local _ .vmem, ⟨20, _⟩ => ⟨S16x64, .f32⟩
  | .local _ .vmem, ⟨21, _⟩ => ⟨S1x64, .f32⟩
  | .local _ .vmem, ⟨22, _⟩ => ⟨S8000x64, .f32⟩
  | .local _ .vmem, ⟨23, _⟩ => ⟨S8000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S8000x64, .f32⟩
  | .local _ .vmem, ⟨33, _⟩ => ⟨S8000x64, .f32⟩
  | .local _ .vmem, ⟨34, _⟩ => ⟨S8000x16, .f32⟩
  | .local _ .vmem, ⟨35, _⟩ => ⟨S8000x16, .f32⟩
  | .local _ .vmem, ⟨36, _⟩ => ⟨S16x64, .f32⟩
  | .local _ .vmem, ⟨37, _⟩ => ⟨S1x64, .f32⟩
  | .local _ .vmem, ⟨38, _⟩ => ⟨S8000x64, .f32⟩
  | .local _ .vmem, ⟨39, _⟩ => ⟨S8000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x128, .f32⟩
  | .local _ .vmem, ⟨51, _⟩ => ⟨S1x128, .f32⟩
  | .local _ .vmem, ⟨52, _⟩ => ⟨S128x2, .f32⟩
  | .local _ .vmem, ⟨53, _⟩ => ⟨S1x2, .f32⟩
  | .local _ .vmem, ⟨54, _⟩ => ⟨S10000x2, .f32⟩
  | .local _ .vmem, ⟨55, _⟩ => ⟨S10000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  shapeCasts_S128_S1x128 : S128.ShapeCasts S1x128
  shapeCasts_S2_S1x2 : S2.ShapeCasts S1x2
  bcast_S_S800000 : S_.BroadcastsInDim S800000 (![] : Fin 0 → Fin S800000.rank)
  bcast_S800000_S800000x1_0 : S800000.BroadcastsInDim S800000x1 (![0] : Fin 1 → Fin S800000x1.rank)
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S8000x64 : S1x64.Broadcasts S8000x64
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  broadcasts_S1x64_S10000x64 : S1x64.Broadcasts S10000x64
  slices_S3x16x64_S1x16x64_1_0_0 : S3x16x64.Slices ![1, 0, 0] S1x16x64
  slices_S3x64_S1x64_1_0 : S3x64.Slices ![1, 0] S1x64
  slices_S3x16x64_S1x16x64_2_0_0 : S3x16x64.Slices ![2, 0, 0] S1x16x64
  slices_S3x64_S1x64_2_0 : S3x64.Slices ![2, 0] S1x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x128_S10000x128 : S1x128.Broadcasts S10000x128
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S50000x64_S800000x1_S800000x64_1_0_n_n_0_1_164_wf : GatherDims.WF S50000x64 S800000x1 S800000x64 [1] [0] [] [0] [] 1 ![1, 64]
  dot_S8000x16_S16x64_S8000x64_1_0_0_1_n_n_wf : DotDims.WF S8000x16 S16x64 S8000x64 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S800000x16.size a
  hwx0_1 : ∀ i : grid0.Coords, EltTy.bits .f32 = 32 ∨ (Rect.block (s := S800000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x16.size a ≤ S800000x16.size a
  hwx2_1 : ∀ i : grid2.Coords, EltTy.bits .f32 = 32 ∨ (Rect.block (s := S800000x16) S8000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S800000x64.size a
  hwx2_4 : ∀ i : grid2.Coords, EltTy.bits .f32 = 32 ∨ (Rect.block (s := S800000x64) S8000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x16.size a ≤ S800000x16.size a
  hwx4_1 : ∀ i : grid4.Coords, EltTy.bits .f32 = 32 ∨ (Rect.block (s := S800000x16) S8000x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x64.size a ≤ S800000x64.size a
  hwx4_4 : ∀ i : grid4.Coords, EltTy.bits .f32 = 32 ∨ (Rect.block (s := S800000x64) S8000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S50000x64.size a
  hwx5_4 : ∀ i : grid5.Coords, EltTy.bits .f32 = 32 ∨ (Rect.block (s := S50000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x2.size a ≤ S128x2.size a
  hwx6_3 : ∀ i : grid6.Coords, EltTy.bits .f32 = 32 ∨ (Rect.block (s := S128x2) S128x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x2.size a ≤ S50000x2.size a
  hwx6_5 : ∀ i : grid6.Coords, EltTy.bits .f32 = 32 ∨ (Rect.block (s := S50000x2) S10000x2.size (cc6_transform_5 i) (hinb6_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_v13) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v47) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S8000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S16x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S8000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v40) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg3) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v4) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v57) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v5) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S128x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v6) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v58) S10000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S3x16x64 : Shape := ⟨3, ![3, 16, 64]⟩
abbrev S3x64 : Shape := ⟨2, ![3, 64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S1x16x64 : Shape := ⟨3, ![1, 16, 64]⟩
abbrev S16x64 : Shape := ⟨2, ![16, 64]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩
abbrev S50000x128 : Shape := ⟨2, ![50000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 143
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S64x64, .f32⟩
  | 4 => ⟨S64, .f32⟩
  | 5 => ⟨S3x16x64, .f32⟩
  | 6 => ⟨S3x64, .f32⟩
  | 7 => ⟨S64x128, .f32⟩
  | 8 => ⟨S128, .f32⟩
  | 9 => ⟨S128x2, .f32⟩
  | 10 => ⟨S2, .f32⟩
  | 11 => ⟨S1x800000, .i32⟩
  | 12 => ⟨S800000, .i32⟩
  | 13 => ⟨S1x800000, .i32⟩
  | 14 => ⟨S800000, .i32⟩
  | 15 => ⟨S1x16x64, .f32⟩
  | 16 => ⟨S16x64, .f32⟩
  | 17 => ⟨S1x64, .f32⟩
  | 18 => ⟨S64, .f32⟩
  | 19 => ⟨S800000x64, .f32⟩
  | 20 => ⟨S1x64, .f32⟩
  | 21 => ⟨S800000x64, .f32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S_, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .i1⟩
  | 51 => ⟨S_, .f32⟩
  | 52 => ⟨S50000x64, .f32⟩
  | 53 => ⟨S50000x64, .f32⟩
  | 54 => ⟨S50000x64, .f32⟩
  | 55 => ⟨S1x16x64, .f32⟩
  | 56 => ⟨S16x64, .f32⟩
  | 57 => ⟨S1x64, .f32⟩
  | 58 => ⟨S64, .f32⟩
  | 59 => ⟨S800000x64, .f32⟩
  | 60 => ⟨S1x64, .f32⟩
  | 61 => ⟨S800000x64, .f32⟩
  | 62 => ⟨S800000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x64, .f32⟩
  | 73 => ⟨S_, .f32⟩
  | 74 => ⟨S800000x64, .f32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .i1⟩
  | 91 => ⟨S_, .f32⟩
  | 92 => ⟨S50000x64, .f32⟩
  | 93 => ⟨S50000x64, .f32⟩
  | 94 => ⟨S50000x64, .f32⟩
  | 95 => ⟨S1x16x64, .f32⟩
  | 96 => ⟨S16x64, .f32⟩
  | 97 => ⟨S1x64, .f32⟩
  | 98 => ⟨S64, .f32⟩
  | 99 => ⟨S800000x64, .f32⟩
  | 100 => ⟨S1x64, .f32⟩
  | 101 => ⟨S800000x64, .f32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x64, .f32⟩
  | 113 => ⟨S_, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S50000x64, .f32⟩
  | 2 => ⟨S50000x64, .i1⟩
  | 3 => ⟨S_, .f32⟩
  | 4 => ⟨S50000x64, .f32⟩
  | 5 => ⟨S50000x64, .f32⟩
  | 6 => ⟨S50000x64, .f32⟩
  | 7 => ⟨S50000x128, .f32⟩
  | 8 => ⟨S1x128, .f32⟩
  | 9 => ⟨S50000x128, .f32⟩
  | 10 => ⟨S50000x128, .f32⟩
  | 11 => ⟨S50000x2, .f32⟩
  | 12 => ⟨S1x2, .f32⟩
  | 13 => ⟨S50000x2, .f32⟩
  | 14 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_10 : Ref sig .tc := ⟨.hbm, 103, rfl⟩
abbrev main_v76 : Ref sig .tc := ⟨.hbm, 104, rfl⟩
abbrev main_v77 : Ref sig .tc := ⟨.hbm, 105, rfl⟩
abbrev main_c_11 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call4_cst : Ref sig .tc := ⟨.hbm, 113, rfl⟩
abbrev main_call4_v0 : Ref sig .tc := ⟨.hbm, 114, rfl⟩
abbrev main_v84 : Ref sig .tc := ⟨.hbm, 115, rfl⟩
abbrev main_cst_12 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_14 : Ref sig .tc := ⟨.hbm, 128, rfl⟩
abbrev main_v95 : Ref sig .tc := ⟨.hbm, 129, rfl⟩
abbrev main_v96 : Ref sig .tc := ⟨.hbm, 130, rfl⟩
abbrev main_cst_15 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  slices_S3x16x64_S1x16x64_1_0_0 : S3x16x64.Slices ![1, 0, 0] S1x16x64
  slices_S3x64_S1x64_1_0 : S3x64.Slices ![1, 0] S1x64
  slices_S3x16x64_S1x16x64_2_0_0 : S3x16x64.Slices ![2, 0, 0] S1x16x64
  slices_S3x64_S1x64_2_0 : S3x64.Slices ![2, 0] S1x64
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S800000x16_S16x64_S800000x64_1_0_0_1_n_n_wf : DotDims.WF S800000x16 S16x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  dot_S50000x128_S128x2_S50000x2_1_0_0_1_n_n_wf : DotDims.WF S50000x128 S128x2 S50000x2 [1] [0] [0] [1] [] []

variable [Facts₀]

def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The idealized kernel program's run with its RESULT named. The program is thirteen segments — six stretches of
  host operations and seven kernel regions; the contents of every buffer at each segment boundary are a fold from
  the launch memory (`W0` … `W13`: a stretch applies its host operations, a region replaces its arrays by
  what its write-backs leave). Every weakly fair execution terminates, nothing faulting, with every unscoped buffer
  at the last boundary's contents; here that is read at the result buffer as well as at the eleven arguments.
-/
import proofs.«142640_j65085934403702_2_alg».proof.Proof.GenP.KernelIdeal.Frame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result buffer ends at the last boundary's contents `W13` and the argument arrays end as launched. -/
theorem run : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.RunValue

end
-- ==== Proof.Boundaries.lean ====
/-
  What each segment of the idealized kernel program leaves UNCHANGED. The buffer contents at the thirteen segment
  boundaries are a fold from the launch memory. A stretch of host operations changes only the buffers its operations
  write; a kernel region changes only its output array (its input arrays are read through their windows and end as
  they were entered). So a buffer outside a segment's writes holds after the segment what it held before.
-/
import proofs.«142640_j65085934403702_2_alg».proof.Proof.GenP.KernelIdeal.Frame

set_option maxRecDepth 16384

noncomputable section

namespace Cert.KernelIdeal.Bound

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The buffers each stretch of host operations writes -/

/-- The buffers the operations of host stretch 0 write, in order. -/
abbrev writes0 : List (Ref sig .tc) := [main_v0, main_v1, main_v2, main_v3, main_v4, main_v5, main_v6, main_c, main_v7, main_v8, main_c_0, main_v9, main_v10, main_v11, main_v12, main_v13, main_v14, main_v15, main_v16, main_v17, main_v18]
theorem hostOps0_writes : (hostOps0 : List (HloOp τ sig (Elt F))).Forall fun op => op.writes ⊆ (writes0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 0 does not write holds after it what it held before. -/
theorem keep1 (c : Dev nD) (r : Ref sig .tc) (h : r ∉ writes0) :
    W1 m ρ c (Proc.devRef .tc r) = W0 m ρ c (Proc.devRef .tc r) :=
  StableHlo.after_of_writes_sub hostOps0 _ hostOps0_writes h

/-- The buffers the operations of host stretch 1 write, in order. -/
abbrev writes1 : List (Ref sig .tc) := [main_cst, main_v20, main_v21, main_v22]
theorem hostOps1_writes : (hostOps1 : List (HloOp τ sig (Elt F))).Forall fun op => op.writes ⊆ (writes1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 1 does not write holds after it what it held before. -/
theorem keep3 (c : Dev nD) (r : Ref sig .tc) (h : r ∉ writes1) :
    W3 m ρ c (Proc.devRef .tc r) = W2 m ρ c (Proc.devRef .tc r) :=
  StableHlo.after_of_writes_sub hostOps1 _ hostOps1_writes h

/-- The buffers the operations of host stretch 2 write, in order. -/
abbrev writes2 : List (Ref sig .tc) := [main_c_1, main_v24, main_v25, main_c_2, main_v26, main_v27, main_v28, main_v29, main_v30, main_v31, main_v32, main_v33, main_v34, main_v35]
theorem hostOps2_writes : (hostOps2 : List (HloOp τ sig (Elt F))).Forall fun op => op.writes ⊆ (writes2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 2 does not write holds after it what it held before. -/
theorem keep5 (c : Dev nD) (r : Ref sig .tc) (h : r ∉ writes2) :
    W5 m ρ c (Proc.devRef .tc r) = W4 m ρ c (Proc.devRef .tc r) :=
  StableHlo.after_of_writes_sub hostOps2 _ hostOps2_writes h

/-- The buffers the operations of host stretch 3 write, in order. -/
abbrev writes3 : List (Ref sig .tc) := [main_cst_3, main_v37, main_v38, main_v39]
theorem hostOps3_writes : (hostOps3 : List (HloOp τ sig (Elt F))).Forall fun op => op.writes ⊆ (writes3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 3 does not write holds after it what it held before. -/
theorem keep7 (c : Dev nD) (r : Ref sig .tc) (h : r ∉ writes3) :
    W7 m ρ c (Proc.devRef .tc r) = W6 m ρ c (Proc.devRef .tc r) :=
  StableHlo.after_of_writes_sub hostOps3 _ hostOps3_writes h

/-- The buffers the operations of host stretch 4 write, in order. -/
abbrev writes4 : List (Ref sig .tc) := [main_c_4, main_v41, main_v42, main_c_5, main_v43, main_v44, main_v45, main_v46, main_v47, main_v48, main_v49, main_v50, main_v51, main_v52]
theorem hostOps4_writes : (hostOps4 : List (HloOp τ sig (Elt F))).Forall fun op => op.writes ⊆ (writes4.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 4 does not write holds after it what it held before. -/
theorem keep9 (c : Dev nD) (r : Ref sig .tc) (h : r ∉ writes4) :
    W9 m ρ c (Proc.devRef .tc r) = W8 m ρ c (Proc.devRef .tc r) :=
  StableHlo.after_of_writes_sub hostOps4 _ hostOps4_writes h

/-- The buffers the operations of host stretch 5 write, in order. -/
abbrev writes5 : List (Ref sig .tc) := [main_cst_6, main_v54, main_v55, main_v56]
theorem hostOps5_writes : (hostOps5 : List (HloOp τ sig (Elt F))).Forall fun op => op.writes ⊆ (writes5.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer host stretch 5 does not write holds after it what it held before. -/
theorem keep11 (c : Dev nD) (r : Ref sig .tc) (h : r ∉ writes5) :
    W11 m ρ c (Proc.devRef .tc r) = W10 m ρ c (Proc.devRef .tc r) :=
  StableHlo.after_of_writes_sub hostOps5 _ hostOps5_writes h

/-! ## The regions: every buffer but the output array ends as it was entered -/

/-- Region 0 changes no buffer but its output array `main_v19`. -/
theorem keep2 (c : Dev nD) (r : Ref sig .tc) (h : r ≠ main_v19) :
    W2 m ρ c (Proc.devRef .tc r) = W1 m ρ c (Proc.devRef .tc r) := by
  by_cases hr : ∃ w, Pipeline.arrRef spec0 w = r
  · obtain ⟨w, rfl⟩ := hr
    match w, h with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, _ => exact (W2_arr m ρ c 3).trans (((dat0 (V1 m ρ) c).arrAt_in 3 rfl _).trans (A_eq0 (V1 m ρ) c 3))
    | ⟨4, _⟩, h => exact absurd rfl h
  · exact W2_of_ne m ρ c r fun w e => hr ⟨w, e⟩

/-- Region 1 changes no buffer but its output array `main_v23`. -/
theorem keep4 (c : Dev nD) (r : Ref sig .tc) (h : r ≠ main_v23) :
    W4 m ρ c (Proc.devRef .tc r) = W3 m ρ c (Proc.devRef .tc r) := by
  by_cases hr : ∃ w, Pipeline.arrRef spec1 w = r
  · obtain ⟨w, rfl⟩ := hr
    match w, h with
    | ⟨0, _⟩, _ => exact (W4_arr m ρ c 0).trans (((dat1 (V3 m ρ) c).arrAt_in 0 rfl _).trans (A_eq1 (V3 m ρ) c 0))
    | ⟨1, _⟩, _ => exact (W4_arr m ρ c 1).trans (((dat1 (V3 m ρ) c).arrAt_in 1 rfl _).trans (A_eq1 (V3 m ρ) c 1))
    | ⟨2, _⟩, _ => exact (W4_arr m ρ c 2).trans (((dat1 (V3 m ρ) c).arrAt_in 2 rfl _).trans (A_eq1 (V3 m ρ) c 2))
    | ⟨3, _⟩, _ => exact (W4_arr m ρ c 3).trans (((dat1 (V3 m ρ) c).arrAt_in 3 rfl _).trans (A_eq1 (V3 m ρ) c 3))
    | ⟨4, _⟩, h => exact absurd rfl h
  · exact W4_of_ne m ρ c r fun w e => hr ⟨w, e⟩

/-- Region 2 changes no buffer but its output array `main_v36`. -/
theorem keep6 (c : Dev nD) (r : Ref sig .tc) (h : r ≠ main_v36) :
    W6 m ρ c (Proc.devRef .tc r) = W5 m ρ c (Proc.devRef .tc r) := by
  by_cases hr : ∃ w, Pipeline.arrRef spec2 w = r
  · obtain ⟨w, rfl⟩ := hr
    match w, h with
    | ⟨0, _⟩, _ => exact (W6_arr m ρ c 0).trans (((dat2 (V5 m ρ) c).arrAt_in 0 rfl _).trans (A_eq2 (V5 m ρ) c 0))
    | ⟨1, _⟩, _ => exact (W6_arr m ρ c 1).trans (((dat2 (V5 m ρ) c).arrAt_in 1 rfl _).trans (A_eq2 (V5 m ρ) c 1))
    | ⟨2, _⟩, _ => exact (W6_arr m ρ c 2).trans (((dat2 (V5 m ρ) c).arrAt_in 2 rfl _).trans (A_eq2 (V5 m ρ) c 2))
    | ⟨3, _⟩, _ => exact (W6_arr m ρ c 3).trans (((dat2 (V5 m ρ) c).arrAt_in 3 rfl _).trans (A_eq2 (V5 m ρ) c 3))
    | ⟨4, _⟩, h => exact absurd rfl h
  · exact W6_of_ne m ρ c r fun w e => hr ⟨w, e⟩

/-- Region 3 changes no buffer but its output array `main_v40`. -/
theorem keep8 (c : Dev nD) (r : Ref sig .tc) (h : r ≠ main_v40) :
    W8 m ρ c (Proc.devRef .tc r) = W7 m ρ c (Proc.devRef .tc r) := by
  by_cases hr : ∃ w, Pipeline.arrRef spec3 w = r
  · obtain ⟨w, rfl⟩ := hr
    match w, h with
    | ⟨0, _⟩, _ => exact (W8_arr m ρ c 0).trans (((dat3 (V7 m ρ) c).arrAt_in 0 rfl _).trans (A_eq3 (V7 m ρ) c 0))
    | ⟨1, _⟩, _ => exact (W8_arr m ρ c 1).trans (((dat3 (V7 m ρ) c).arrAt_in 1 rfl _).trans (A_eq3 (V7 m ρ) c 1))
    | ⟨2, _⟩, _ => exact (W8_arr m ρ c 2).trans (((dat3 (V7 m ρ) c).arrAt_in 2 rfl _).trans (A_eq3 (V7 m ρ) c 2))
    | ⟨3, _⟩, _ => exact (W8_arr m ρ c 3).trans (((dat3 (V7 m ρ) c).arrAt_in 3 rfl _).trans (A_eq3 (V7 m ρ) c 3))
    | ⟨4, _⟩, h => exact absurd rfl h
  · exact W8_of_ne m ρ c r fun w e => hr ⟨w, e⟩

/-- Region 4 changes no buffer but its output array `main_v53`. -/
theorem keep10 (c : Dev nD) (r : Ref sig .tc) (h : r ≠ main_v53) :
    W10 m ρ c (Proc.devRef .tc r) = W9 m ρ c (Proc.devRef .tc r) := by
  by_cases hr : ∃ w, Pipeline.arrRef spec4 w = r
  · obtain ⟨w, rfl⟩ := hr
    match w, h with
    | ⟨0, _⟩, _ => exact (W10_arr m ρ c 0).trans (((dat4 (V9 m ρ) c).arrAt_in 0 rfl _).trans (A_eq4 (V9 m ρ) c 0))
    | ⟨1, _⟩, _ => exact (W10_arr m ρ c 1).trans (((dat4 (V9 m ρ) c).arrAt_in 1 rfl _).trans (A_eq4 (V9 m ρ) c 1))
    | ⟨2, _⟩, _ => exact (W10_arr m ρ c 2).trans (((dat4 (V9 m ρ) c).arrAt_in 2 rfl _).trans (A_eq4 (V9 m ρ) c 2))
    | ⟨3, _⟩, _ => exact (W10_arr m ρ c 3).trans (((dat4 (V9 m ρ) c).arrAt_in 3 rfl _).trans (A_eq4 (V9 m ρ) c 3))
    | ⟨4, _⟩, h => exact absurd rfl h
  · exact W10_of_ne m ρ c r fun w e => hr ⟨w, e⟩

/-- Region 5 changes no buffer but its output array `main_v57`. -/
theorem keep12 (c : Dev nD) (r : Ref sig .tc) (h : r ≠ main_v57) :
    W12 m ρ c (Proc.devRef .tc r) = W11 m ρ c (Proc.devRef .tc r) := by
  by_cases hr : ∃ w, Pipeline.arrRef spec5 w = r
  · obtain ⟨w, rfl⟩ := hr
    match w, h with
    | ⟨0, _⟩, _ => exact (W12_arr m ρ c 0).trans (((dat5 (V11 m ρ) c).arrAt_in 0 rfl _).trans (A_eq5 (V11 m ρ) c 0))
    | ⟨1, _⟩, _ => exact (W12_arr m ρ c 1).trans (((dat5 (V11 m ρ) c).arrAt_in 1 rfl _).trans (A_eq5 (V11 m ρ) c 1))
    | ⟨2, _⟩, _ => exact (W12_arr m ρ c 2).trans (((dat5 (V11 m ρ) c).arrAt_in 2 rfl _).trans (A_eq5 (V11 m ρ) c 2))
    | ⟨3, _⟩, _ => exact (W12_arr m ρ c 3).trans (((dat5 (V11 m ρ) c).arrAt_in 3 rfl _).trans (A_eq5 (V11 m ρ) c 3))
    | ⟨4, _⟩, h => exact absurd rfl h
  · exact W12_of_ne m ρ c r fun w e => hr ⟨w, e⟩

/-- Region 6 changes no buffer but its output array `main_v58`. -/
theorem keep13 (c : Dev nD) (r : Ref sig .tc) (h : r ≠ main_v58) :
    W13 m ρ c (Proc.devRef .tc r) = W12 m ρ c (Proc.devRef .tc r) := by
  by_cases hr : ∃ w, Pipeline.arrRef spec6 w = r
  · obtain ⟨w, rfl⟩ := hr
    match w, h with
    | ⟨0, _⟩, _ => exact (W13_arr m ρ c 0).trans (((dat6 (V12 m ρ) c).arrAt_in 0 rfl _).trans (A_eq6 (V12 m ρ) c 0))
    | ⟨1, _⟩, _ => exact (W13_arr m ρ c 1).trans (((dat6 (V12 m ρ) c).arrAt_in 1 rfl _).trans (A_eq6 (V12 m ρ) c 1))
    | ⟨2, _⟩, _ => exact (W13_arr m ρ c 2).trans (((dat6 (V12 m ρ) c).arrAt_in 2 rfl _).trans (A_eq6 (V12 m ρ) c 2))
    | ⟨3, _⟩, _ => exact (W13_arr m ρ c 3).trans (((dat6 (V12 m ρ) c).arrAt_in 3 rfl _).trans (A_eq6 (V12 m ρ) c 3))
    | ⟨4, _⟩, _ => exact (W13_arr m ρ c 4).trans (((dat6 (V12 m ρ) c).arrAt_in 4 rfl _).trans (A_eq6 (V12 m ρ) c 4))
    | ⟨5, _⟩, h => exact absurd rfl h
  · exact W13_of_ne m ρ c r fun w e => hr ⟨w, e⟩

end Cert.KernelIdeal.Bound

end
-- ==== Proof.Forms.lean ====
/-
  The three dense layers of the network, each as ONE whole-array expression in the host's vocabulary — the spelling
  the reference program uses for them:
    * the edge message   max(A + (B · W + b), 0)            over 800000 edges, 16 edge features, 64 node features;
    * the node update    leaky(((1 · H) + G) · Wn + b)      over 50000 nodes, leaky(z) = z if z ≥ 0 else 0.01 · z;
    * the readout        ((H · W1 + b1) · W2 + b2)          over 50000 nodes, 64 → 128 → 2.
  Biases enter as one-row matrices and are broadcast along the rows.
-/
import proofs.«142640_j65085934403702_2_alg».proof.Proof.Gen.ReferenceIdeal
import Idealize.ShloMosaic.PureOps.Ideal

noncomputable section

namespace Cert.Forms

open Idealize.ShloMosaic Cert.ReferenceIdeal Cert.ReferenceIdeal.Facts₀

variable {F : FTy → Type} [FloatOps F]

/-- The edge message: `max(A + (B · W + b), 0)`, row by row; `b` is a one-row matrix. -/
def edgeForm (A : FVec F S800000x64 .f32) (B : FVec F S800000x16 .f32) (W : FVec F S16x64 .f32) (b : FVec F S1x64 .f32) :
    FVec F S800000x64 .f32 :=
  maximumf
    (addf A (addf (Host.dotGeneral dot_S800000x16_S16x64_S800000x64_1_0_0_1_n_n none B W)
      (broadcastInDim S800000x64 ![0, 1] bcast_S1x64_S800000x64_0_1 b)))
    (broadcastInDim S800000x64 ![] bcast_S_S800000x64 (constant S_ .f32 0x00000000#32))

/-- The affine part of the node update: `((1 · H) + G) · Wn + b`. -/
def nodeLin (H G : FVec F S50000x64 .f32) (Wn : FVec F S64x64 .f32) (b : FVec F S1x64 .f32) : FVec F S50000x64 .f32 :=
  addf (Host.dotGeneral dot_S50000x64_S64x64_S50000x64_1_0_0_1_n_n none
      (addf (mulf (broadcastInDim S50000x64 ![] bcast_S_S50000x64 (constant S_ .f32 0x3F800000#32)) H) G) Wn)
    (broadcastInDim S50000x64 ![0, 1] bcast_S1x64_S50000x64_0_1 b)

/-- The node update: the affine part through the leaky rectifier of slope 0.01 (as a 32-bit float literal). -/
def nodeForm (H G : FVec F S50000x64 .f32) (Wn : FVec F S64x64 .f32) (b : FVec F S1x64 .f32) : FVec F S50000x64 .f32 :=
  select (cmpf .oge (nodeLin H G Wn b) (broadcastInDim S50000x64 ![] bcast_S_S50000x64 (constant S_ .f32 0x00000000#32)))
    (nodeLin H G Wn b)
    (mulf (broadcastInDim S50000x64 ![] bcast_S_S50000x64 (constant S_ .f32 0x3C23D70A#32)) (nodeLin H G Wn b))

/-- The readout: two affine maps, 64 → 128 → 2. -/
def readForm (H : FVec F S50000x64 .f32) (W1 : FVec F S64x128 .f32) (b1 : FVec F S1x128 .f32) (W2 : FVec F S128x2 .f32)
    (b2 : FVec F S1x2 .f32) : FVec F S50000x2 .f32 :=
  addf (Host.dotGeneral dot_S50000x128_S128x2_S50000x2_1_0_0_1_n_n none
      (addf (Host.dotGeneral dot_S50000x64_S64x128_S50000x128_1_0_0_1_n_n none H W1)
        (broadcastInDim S50000x128 ![0, 1] bcast_S1x128_S50000x128_0_1 b1)) W2)
    (broadcastInDim S50000x2 ![0, 1] bcast_S1x2_S50000x2_0_1 b2)

/-! ## The sparse part: source rows gathered, messages summed into their destination rows -/

/-- Row 0 of the edge list as gather indices: a negative index counts from the end (50000 is added to it). -/
def srcIdx (EI : (⟨S2x800000, .i32⟩ : BufTy).Contents (Elt F)) : (⟨S800000x1, .i32⟩ : BufTy).Contents (Elt F) :=
  broadcastInDim S800000x1 ![0] bcast_S800000_S800000x1_0
    (select
      (cmpi .slt (shapeCast _ (extractStridedSlice S1x800000 ![0, 0] EI slices_S2x800000_S1x800000_0_0) shapeCasts_S1x800000_S800000)
        (broadcastInDim S800000 ![] bcast_S_S800000 (constantI S_ 32 0#32)))
      (addi (shapeCast _ (extractStridedSlice S1x800000 ![0, 0] EI slices_S2x800000_S1x800000_0_0) shapeCasts_S1x800000_S800000)
        (broadcastInDim S800000 ![] bcast_S_S800000 (constantI S_ 32 50000#32)))
      (shapeCast _ (extractStridedSlice S1x800000 ![0, 0] EI slices_S2x800000_S1x800000_0_0) shapeCasts_S1x800000_S800000))

/-- Row 1 of the edge list as scatter indices. -/
def dstIdx (EI : (⟨S2x800000, .i32⟩ : BufTy).Contents (Elt F)) : (⟨S800000x1, .i32⟩ : BufTy).Contents (Elt F) :=
  broadcastInDim S800000x1 ![0] bcast_S800000_S800000x1_0
    (shapeCast _ (extractStridedSlice S1x800000 ![1, 0] EI slices_S2x800000_S1x800000_1_0) shapeCasts_S1x800000_S800000)

/-- The node rows at the edges' sources. -/
def gatherForm (EI : (⟨S2x800000, .i32⟩ : BufTy).Contents (Elt F)) (H : FVec F S50000x64 .f32) : FVec F S800000x64 .f32 :=
  Host.gather gather_S50000x64_S800000x1_S800000x64_1_0_n_n_0_1_164 H (srcIdx EI)

/-- The messages summed into their destination rows, from zero. -/
def aggrForm (EI : (⟨S2x800000, .i32⟩ : BufTy).Contents (Elt F)) (M : FVec F S800000x64 .f32) : FVec F S50000x64 .f32 :=
  Host.scatterAdd scatter_S50000x64_S800000x1_S800000x64_1_0_0_1
    (broadcastInDim S50000x64 ![] bcast_S_S50000x64 (constant S_ .f32 0x00000000#32)) (dstIdx EI) M

/-- One message-passing layer: gather, edge message, sum by destination, node update. -/
def layerForm (EI : (⟨S2x800000, .i32⟩ : BufTy).Contents (Elt F)) (EA : FVec F S800000x16 .f32) (Wl : FVec F S16x64 .f32)
    (bl : FVec F S1x64 .f32) (Wn : FVec F S64x64 .f32) (bn : FVec F S1x64 .f32) (H : FVec F S50000x64 .f32) : FVec F S50000x64 .f32 :=
  nodeForm H (aggrForm EI (edgeForm (gatherForm EI H) EA Wl bl)) Wn bn

/-- Layer `l`'s edge weight: slice `l` of the stacked weights, as a matrix. -/
def We0 (We : FVec F S3x16x64 .f32) : FVec F S16x64 .f32 :=
  shapeCast _ (extractStridedSlice S1x16x64 ![0, 0, 0] We slices_S3x16x64_S1x16x64_0_0_0) shapeCasts_S1x16x64_S16x64
def We1 (We : FVec F S3x16x64 .f32) : FVec F S16x64 .f32 :=
  shapeCast _ (extractStridedSlice S1x16x64 ![1, 0, 0] We slices_S3x16x64_S1x16x64_1_0_0) shapeCasts_S1x16x64_S16x64
def We2 (We : FVec F S3x16x64 .f32) : FVec F S16x64 .f32 :=
  shapeCast _ (extractStridedSlice S1x16x64 ![2, 0, 0] We slices_S3x16x64_S1x16x64_2_0_0) shapeCasts_S1x16x64_S16x64
/-- Layer `l`'s edge bias: row `l` of the stacked biases, as a vector. -/
def be0 (be : FVec F S3x64 .f32) : FVec F S64 .f32 :=
  shapeCast _ (extractStridedSlice S1x64 ![0, 0] be slices_S3x64_S1x64_0_0) shapeCasts_S1x64_S64
def be1 (be : FVec F S3x64 .f32) : FVec F S64 .f32 :=
  shapeCast _ (extractStridedSlice S1x64 ![1, 0] be slices_S3x64_S1x64_1_0) shapeCasts_S1x64_S64
def be2 (be : FVec F S3x64 .f32) : FVec F S64 .f32 :=
  shapeCast _ (extractStridedSlice S1x64 ![2, 0] be slices_S3x64_S1x64_2_0) shapeCasts_S1x64_S64

/-- A vector as a one-row matrix, the host's way: broadcast along a new leading axis of extent 1. -/
def row64 (v : FVec F S64 .f32) : FVec F S1x64 .f32 := broadcastInDim S1x64 ![1] bcast_S64_S1x64_1 v
def row128 (v : FVec F S128 .f32) : FVec F S1x128 .f32 := broadcastInDim S1x128 ![1] bcast_S128_S1x128_1 v
def row2 (v : FVec F S2 .f32) : FVec F S1x2 .f32 := broadcastInDim S1x2 ![1] bcast_S2_S1x2_1 v

/-- The whole network: three layers (one shared node map, a weight and bias per layer for the edges), then the
    readout. `r64`, `r128`, `r2` say how a bias vector is made a one-row matrix. -/
def netForm (r64 : FVec F S64 .f32 → FVec F S1x64 .f32) (r128 : FVec F S128 .f32 → FVec F S1x128 .f32)
    (r2 : FVec F S2 .f32 → FVec F S1x2 .f32)
    (X : FVec F S50000x64 .f32) (EI : (⟨S2x800000, .i32⟩ : BufTy).Contents (Elt F)) (EA : FVec F S800000x16 .f32)
    (Wn : FVec F S64x64 .f32) (bn : FVec F S64 .f32) (We : FVec F S3x16x64 .f32) (be : FVec F S3x64 .f32)
    (W1 : FVec F S64x128 .f32) (b1 : FVec F S128 .f32) (W2 : FVec F S128x2 .f32) (b2 : FVec F S2 .f32) : FVec F S50000x2 .f32 :=
  readForm
    (layerForm EI EA (We2 We) (r64 (be2 be)) Wn (r64 bn)
      (layerForm EI EA (We1 We) (r64 (be1 be)) Wn (r64 bn)
        (layerForm EI EA (We0 We) (r64 (be0 be)) Wn (r64 bn) X)))
    W1 (r128 b1) W2 (r2 b2)

end Cert.Forms

end
-- ==== Proof.Chain.lean ====
/-
  The idealized kernel program's result, read back through its thirteen segments to the launch arrays.
  Each kernel region leaves in its output array one of the three dense whole-array forms (edge message, node update,
  readout) of the arrays it found; each stretch of host operations computes the gathers, the sums by destination and the
  slices between them. Followed from the last boundary back to the launch, the result buffer holds the whole network
  `netForm` of the eleven arguments — with each bias vector made a one-row matrix by a reshape, which is the same
  one-row matrix as the host's broadcast along a new unit axis.
-/
import proofs.«142640_j65085934403702_2_alg».proof.Proof.Boundaries
import proofs.«142640_j65085934403702_2_alg».proof.Proof.Forms
import Idealize.ShloMosaic.Lib.Pipeline.Value
import Idealize.ShloMosaic.Lib.StableHlo.Run

set_option maxRecDepth 16384

noncomputable section

namespace Cert.KernelIdeal.Chain

open Cert.KernelIdeal Cert.KernelIdeal.GenP Cert.KernelIdeal.Bound Cert.Forms
open Idealize.ShloMosaic Idealize.ShloMosaic.TcCoe Idealize.SL.Sem Idealize.ShloMosaic.StableHlo

/-! ## The kernel program's own spellings -/

/-- Row 0 of the edge list, as a vector. -/
def srcRaw (EI : (⟨S2x800000, .i32⟩ : BufTy).Contents (Elt Ideal)) : (⟨S800000, .i32⟩ : BufTy).Contents (Elt Ideal) :=
  shapeCast _ (extractStridedSlice S1x800000 ![0, 0] EI Facts₀.slices_S2x800000_S1x800000_0_0) Facts₀.shapeCasts_S1x800000_S800000
/-- Row 1 of the edge list, as a vector. -/
def dstRaw (EI : (⟨S2x800000, .i32⟩ : BufTy).Contents (Elt Ideal)) : (⟨S800000, .i32⟩ : BufTy).Contents (Elt Ideal) :=
  shapeCast _ (extractStridedSlice S1x800000 ![1, 0] EI Facts₀.slices_S2x800000_S1x800000_1_0) Facts₀.shapeCasts_S1x800000_S800000
/-- A bias vector as a one-row matrix, by a reshape. -/
def cast64 (v : FVec Ideal S64 .f32) : FVec Ideal S1x64 .f32 := shapeCast S1x64 v Facts₀.shapeCasts_S64_S1x64
def cast128 (v : FVec Ideal S128 .f32) : FVec Ideal S1x128 .f32 := shapeCast S1x128 v Facts₀.shapeCasts_S128_S1x128
def cast2 (v : FVec Ideal S2 .f32) : FVec Ideal S1x2 .f32 := shapeCast S1x2 v Facts₀.shapeCasts_S2_S1x2

/-! ## The later stretches of host operations, from any contents -/

/-- The rows of `H` at the sources `s` (a negative index counts from the end). -/
def gatherAt (H : FVec Ideal S50000x64 .f32) (s : (⟨S800000, .i32⟩ : BufTy).Contents (Elt Ideal)) : FVec Ideal S800000x64 .f32 :=
  Host.gather Cert.ReferenceIdeal.gather_S50000x64_S800000x1_S800000x64_1_0_n_n_0_1_164 H
    (broadcastInDim S800000x1 ![0] Cert.ReferenceIdeal.Facts₀.bcast_S800000_S800000x1_0
      (select (cmpi .slt s (broadcastInDim S800000 ![] Cert.ReferenceIdeal.Facts₀.bcast_S_S800000 (constantI S_ 32 0#32)))
        (addi s (broadcastInDim S800000 ![] Cert.ReferenceIdeal.Facts₀.bcast_S_S800000 (constantI S_ 32 50000#32))) s))
/-- The messages `M` summed into the rows `d`, from zero. -/
def aggrAt (d : (⟨S800000, .i32⟩ : BufTy).Contents (Elt Ideal)) (M : FVec Ideal S800000x64 .f32) : FVec Ideal S50000x64 .f32 :=
  Host.scatterAdd Cert.ReferenceIdeal.scatter_S50000x64_S800000x1_S800000x64_1_0_0_1
    (broadcastInDim S50000x64 ![] Cert.ReferenceIdeal.Facts₀.bcast_S_S50000x64 (constant S_ .f32 0x00000000#32))
    (broadcastInDim S800000x1 ![0] Cert.ReferenceIdeal.Facts₀.bcast_S800000_S800000x1_0 d) M

theorem gatherAt_src (EI : (⟨S2x800000, .i32⟩ : BufTy).Contents (Elt Ideal)) (H : FVec Ideal S50000x64 .f32) :
    gatherAt H (srcRaw EI) = gatherForm (F := Ideal) EI H := rfl
theorem aggrAt_dst (EI : (⟨S2x800000, .i32⟩ : BufTy).Contents (Elt Ideal)) (M : FVec Ideal S800000x64 .f32) :
    aggrAt (dstRaw EI) M = aggrForm (F := Ideal) EI M := rfl

section
variable (U : Valuation τ sig (Elt Ideal))
theorem host1_v22 : StableHlo.after hostOps1 U (Proc.devRef .tc main_v22) = aggrAt (U (Proc.devRef .tc main_v3)) (U (Proc.devRef .tc main_v19)) := by
  after_results; rfl
theorem host3_v39 : StableHlo.after hostOps3 U (Proc.devRef .tc main_v39) = aggrAt (U (Proc.devRef .tc main_v3)) (U (Proc.devRef .tc main_v36)) := by
  after_results; rfl
theorem host5_v56 : StableHlo.after hostOps5 U (Proc.devRef .tc main_v56) = aggrAt (U (Proc.devRef .tc main_v3)) (U (Proc.devRef .tc main_v53)) := by
  after_results; rfl
theorem host2_v30 : StableHlo.after hostOps2 U (Proc.devRef .tc main_v30) = gatherAt (U (Proc.devRef .tc main_v23)) (U (Proc.devRef .tc main_v1)) := by
  after_results; rfl
theorem host2_v32 : StableHlo.after hostOps2 U (Proc.devRef .tc main_v32) = We1 (F := Ideal) (U (Proc.devRef .tc main_arg5)) := by
  after_results; rfl
theorem host2_v35 : StableHlo.after hostOps2 U (Proc.devRef .tc main_v35) = cast64 (be1 (F := Ideal) (U (Proc.devRef .tc main_arg6))) := by
  after_results; rfl
theorem host4_v47 : StableHlo.after hostOps4 U (Proc.devRef .tc main_v47) = gatherAt (U (Proc.devRef .tc main_v40)) (U (Proc.devRef .tc main_v1)) := by
  after_results; rfl
theorem host4_v49 : StableHlo.after hostOps4 U (Proc.devRef .tc main_v49) = We2 (F := Ideal) (U (Proc.devRef .tc main_arg5)) := by
  after_results; rfl
theorem host4_v52 : StableHlo.after hostOps4 U (Proc.devRef .tc main_v52) = cast64 (be2 (F := Ideal) (U (Proc.devRef .tc main_arg6))) := by
  after_results; rfl
end

variable (m : (ℓ : Loc nD τ sig) → Buf (Elt Ideal) ℓ) (ρ : Dev nD → PrngReg) (c : Dev nD)

/-! ## After the first stretch of host operations -/

theorem w1_v1 : W1 m ρ c (Proc.devRef .tc main_v1) = srcRaw (m ((c : Thread nD τ).loc main_arg1)) := by
  show StableHlo.after hostOps0 (W0 m ρ c) (Proc.devRef .tc main_v1) = _
  after_results; rfl
theorem w1_v3 : W1 m ρ c (Proc.devRef .tc main_v3) = dstRaw (m ((c : Thread nD τ).loc main_arg1)) := by
  show StableHlo.after hostOps0 (W0 m ρ c) (Proc.devRef .tc main_v3) = _
  after_results; rfl
theorem w1_v4 : W1 m ρ c (Proc.devRef .tc main_v4) = cast64 (m ((c : Thread nD τ).loc main_arg4)) := by
  show StableHlo.after hostOps0 (W0 m ρ c) (Proc.devRef .tc main_v4) = _
  after_results; rfl
theorem w1_v5 : W1 m ρ c (Proc.devRef .tc main_v5) = cast128 (m ((c : Thread nD τ).loc main_arg8)) := by
  show StableHlo.after hostOps0 (W0 m ρ c) (Proc.devRef .tc main_v5) = _
  after_results; rfl
theorem w1_v6 : W1 m ρ c (Proc.devRef .tc main_v6) = cast2 (m ((c : Thread nD τ).loc main_arg10)) := by
  show StableHlo.after hostOps0 (W0 m ρ c) (Proc.devRef .tc main_v6) = _
  after_results; rfl
theorem w1_v13 : W1 m ρ c (Proc.devRef .tc main_v13) = gatherForm (F := Ideal) (m ((c : Thread nD τ).loc main_arg1)) (m ((c : Thread nD τ).loc main_arg0)) := by
  show StableHlo.after hostOps0 (W0 m ρ c) (Proc.devRef .tc main_v13) = _
  after_results; rfl
theorem w1_v15 : W1 m ρ c (Proc.devRef .tc main_v15) = We0 (F := Ideal) (m ((c : Thread nD τ).loc main_arg5)) := by
  show StableHlo.after hostOps0 (W0 m ρ c) (Proc.devRef .tc main_v15) = _
  after_results; rfl
theorem w1_v18 : W1 m ρ c (Proc.devRef .tc main_v18) = cast64 (be0 (F := Ideal) (m ((c : Thread nD τ).loc main_arg6))) := by
  show StableHlo.after hostOps0 (W0 m ρ c) (Proc.devRef .tc main_v18) = _
  after_results; rfl

/-! ## Buffers no later segment writes, at the boundaries where they are read -/
theorem st1_arg0 : W1 m ρ c (Proc.devRef .tc main_arg0) = m ((c : Thread nD τ).loc main_arg0) := by
  exact (keep1 m ρ c main_arg0 (by decide)).trans rfl
theorem st1_arg1 : W1 m ρ c (Proc.devRef .tc main_arg1) = m ((c : Thread nD τ).loc main_arg1) := by
  exact (keep1 m ρ c main_arg1 (by decide)).trans rfl
theorem st1_arg2 : W1 m ρ c (Proc.devRef .tc main_arg2) = m ((c : Thread nD τ).loc main_arg2) := by
  exact (keep1 m ρ c main_arg2 (by decide)).trans rfl
theorem st1_arg5 : W1 m ρ c (Proc.devRef .tc main_arg5) = m ((c : Thread nD τ).loc main_arg5) := by
  exact (keep1 m ρ c main_arg5 (by decide)).trans rfl
theorem st1_arg6 : W1 m ρ c (Proc.devRef .tc main_arg6) = m ((c : Thread nD τ).loc main_arg6) := by
  exact (keep1 m ρ c main_arg6 (by decide)).trans rfl
theorem st1_arg4 : W1 m ρ c (Proc.devRef .tc main_arg4) = m ((c : Thread nD τ).loc main_arg4) := by
  exact (keep1 m ρ c main_arg4 (by decide)).trans rfl
theorem st1_arg8 : W1 m ρ c (Proc.devRef .tc main_arg8) = m ((c : Thread nD τ).loc main_arg8) := by
  exact (keep1 m ρ c main_arg8 (by decide)).trans rfl
theorem st1_arg10 : W1 m ρ c (Proc.devRef .tc main_arg10) = m ((c : Thread nD τ).loc main_arg10) := by
  exact (keep1 m ρ c main_arg10 (by decide)).trans rfl
theorem st2_v3 : W2 m ρ c (Proc.devRef .tc main_v3) = dstRaw (m ((c : Thread nD τ).loc main_arg1)) := by
  rw [keep2 m ρ c main_v3 (by decide)]
  exact w1_v3 m ρ c
theorem st3_arg0 : W3 m ρ c (Proc.devRef .tc main_arg0) = m ((c : Thread nD τ).loc main_arg0) := by
  rw [keep3 m ρ c main_arg0 (by decide), keep2 m ρ c main_arg0 (by decide)]
  exact (keep1 m ρ c main_arg0 (by decide)).trans rfl
theorem st3_arg3 : W3 m ρ c (Proc.devRef .tc main_arg3) = m ((c : Thread nD τ).loc main_arg3) := by
  rw [keep3 m ρ c main_arg3 (by decide), keep2 m ρ c main_arg3 (by decide)]
  exact (keep1 m ρ c main_arg3 (by decide)).trans rfl
theorem st3_v4 : W3 m ρ c (Proc.devRef .tc main_v4) = cast64 (m ((c : Thread nD τ).loc main_arg4)) := by
  rw [keep3 m ρ c main_v4 (by decide), keep2 m ρ c main_v4 (by decide)]
  exact w1_v4 m ρ c
theorem st4_v1 : W4 m ρ c (Proc.devRef .tc main_v1) = srcRaw (m ((c : Thread nD τ).loc main_arg1)) := by
  rw [keep4 m ρ c main_v1 (by decide), keep3 m ρ c main_v1 (by decide), keep2 m ρ c main_v1 (by decide)]
  exact w1_v1 m ρ c
theorem st4_arg5 : W4 m ρ c (Proc.devRef .tc main_arg5) = m ((c : Thread nD τ).loc main_arg5) := by
  rw [keep4 m ρ c main_arg5 (by decide), keep3 m ρ c main_arg5 (by decide), keep2 m ρ c main_arg5 (by decide)]
  exact (keep1 m ρ c main_arg5 (by decide)).trans rfl
theorem st4_arg6 : W4 m ρ c (Proc.devRef .tc main_arg6) = m ((c : Thread nD τ).loc main_arg6) := by
  rw [keep4 m ρ c main_arg6 (by decide), keep3 m ρ c main_arg6 (by decide), keep2 m ρ c main_arg6 (by decide)]
  exact (keep1 m ρ c main_arg6 (by decide)).trans rfl
theorem st5_arg2 : W5 m ρ c (Proc.devRef .tc main_arg2) = m ((c : Thread nD τ).loc main_arg2) := by
  rw [keep5 m ρ c main_arg2 (by decide), keep4 m ρ c main_arg2 (by decide), keep3 m ρ c main_arg2 (by decide), keep2 m ρ c main_arg2 (by decide)]
  exact (keep1 m ρ c main_arg2 (by decide)).trans rfl
theorem st6_v3 : W6 m ρ c (Proc.devRef .tc main_v3) = dstRaw (m ((c : Thread nD τ).loc main_arg1)) := by
  rw [keep6 m ρ c main_v3 (by decide), keep5 m ρ c main_v3 (by decide), keep4 m ρ c main_v3 (by decide), keep3 m ρ c main_v3 (by decide), keep2 m ρ c main_v3 (by decide)]
  exact w1_v3 m ρ c
theorem st7_arg3 : W7 m ρ c (Proc.devRef .tc main_arg3) = m ((c : Thread nD τ).loc main_arg3) := by
  rw [keep7 m ρ c main_arg3 (by decide), keep6 m ρ c main_arg3 (by decide), keep5 m ρ c main_arg3 (by decide), keep4 m ρ c main_arg3 (by decide), keep3 m ρ c main_arg3 (by decide), keep2 m ρ c main_arg3 (by decide)]
  exact (keep1 m ρ c main_arg3 (by decide)).trans rfl
theorem st7_v4 : W7 m ρ c (Proc.devRef .tc main_v4) = cast64 (m ((c : Thread nD τ).loc main_arg4)) := by
  rw [keep7 m ρ c main_v4 (by decide), keep6 m ρ c main_v4 (by decide), keep5 m ρ c main_v4 (by decide), keep4 m ρ c main_v4 (by decide), keep3 m ρ c main_v4 (by decide), keep2 m ρ c main_v4 (by decide)]
  exact w1_v4 m ρ c
theorem st8_v1 : W8 m ρ c (Proc.devRef .tc main_v1) = srcRaw (m ((c : Thread nD τ).loc main_arg1)) := by
  rw [keep8 m ρ c main_v1 (by decide), keep7 m ρ c main_v1 (by decide), keep6 m ρ c main_v1 (by decide), keep5 m ρ c main_v1 (by decide), keep4 m ρ c main_v1 (by decide), keep3 m ρ c main_v1 (by decide), keep2 m ρ c main_v1 (by decide)]
  exact w1_v1 m ρ c
theorem st8_arg5 : W8 m ρ c (Proc.devRef .tc main_arg5) = m ((c : Thread nD τ).loc main_arg5) := by
  rw [keep8 m ρ c main_arg5 (by decide), keep7 m ρ c main_arg5 (by decide), keep6 m ρ c main_arg5 (by decide), keep5 m ρ c main_arg5 (by decide), keep4 m ρ c main_arg5 (by decide), keep3 m ρ c main_arg5 (by decide), keep2 m ρ c main_arg5 (by decide)]
  exact (keep1 m ρ c main_arg5 (by decide)).trans rfl
theorem st8_arg6 : W8 m ρ c (Proc.devRef .tc main_arg6) = m ((c : Thread nD τ).loc main_arg6) := by
  rw [keep8 m ρ c main_arg6 (by decide), keep7 m ρ c main_arg6 (by decide), keep6 m ρ c main_arg6 (by decide), keep5 m ρ c main_arg6 (by decide), keep4 m ρ c main_arg6 (by decide), keep3 m ρ c main_arg6 (by decide), keep2 m ρ c main_arg6 (by decide)]
  exact (keep1 m ρ c main_arg6 (by decide)).trans rfl
theorem st9_arg2 : W9 m ρ c (Proc.devRef .tc main_arg2) = m ((c : Thread nD τ).loc main_arg2) := by
  rw [keep9 m ρ c main_arg2 (by decide), keep8 m ρ c main_arg2 (by decide), keep7 m ρ c main_arg2 (by decide), keep6 m ρ c main_arg2 (by decide), keep5 m ρ c main_arg2 (by decide), keep4 m ρ c main_arg2 (by decide), keep3 m ρ c main_arg2 (by decide), keep2 m ρ c main_arg2 (by decide)]
  exact (keep1 m ρ c main_arg2 (by decide)).trans rfl
theorem st10_v3 : W10 m ρ c (Proc.devRef .tc main_v3) = dstRaw (m ((c : Thread nD τ).loc main_arg1)) := by
  rw [keep10 m ρ c main_v3 (by decide), keep9 m ρ c main_v3 (by decide), keep8 m ρ c main_v3 (by decide), keep7 m ρ c main_v3 (by decide), keep6 m ρ c main_v3 (by decide), keep5 m ρ c main_v3 (by decide), keep4 m ρ c main_v3 (by decide), keep3 m ρ c main_v3 (by decide), keep2 m ρ c main_v3 (by decide)]
  exact w1_v3 m ρ c
theorem st11_arg3 : W11 m ρ c (Proc.devRef .tc main_arg3) = m ((c : Thread nD τ).loc main_arg3) := by
  rw [keep11 m ρ c main_arg3 (by decide), keep10 m ρ c main_arg3 (by decide), keep9 m ρ c main_arg3 (by decide), keep8 m ρ c main_arg3 (by decide), keep7 m ρ c main_arg3 (by decide), keep6 m ρ c main_arg3 (by decide), keep5 m ρ c main_arg3 (by decide), keep4 m ρ c main_arg3 (by decide), keep3 m ρ c main_arg3 (by decide), keep2 m ρ c main_arg3 (by decide)]
  exact (keep1 m ρ c main_arg3 (by decide)).trans rfl
theorem st11_v4 : W11 m ρ c (Proc.devRef .tc main_v4) = cast64 (m ((c : Thread nD τ).loc main_arg4)) := by
  rw [keep11 m ρ c main_v4 (by decide), keep10 m ρ c main_v4 (by decide), keep9 m ρ c main_v4 (by decide), keep8 m ρ c main_v4 (by decide), keep7 m ρ c main_v4 (by decide), keep6 m ρ c main_v4 (by decide), keep5 m ρ c main_v4 (by decide), keep4 m ρ c main_v4 (by decide), keep3 m ρ c main_v4 (by decide), keep2 m ρ c main_v4 (by decide)]
  exact w1_v4 m ρ c
theorem st12_arg7 : W12 m ρ c (Proc.devRef .tc main_arg7) = m ((c : Thread nD τ).loc main_arg7) := by
  rw [keep12 m ρ c main_arg7 (by decide), keep11 m ρ c main_arg7 (by decide), keep10 m ρ c main_arg7 (by decide), keep9 m ρ c main_arg7 (by decide), keep8 m ρ c main_arg7 (by decide), keep7 m ρ c main_arg7 (by decide), keep6 m ρ c main_arg7 (by decide), keep5 m ρ c main_arg7 (by decide), keep4 m ρ c main_arg7 (by decide), keep3 m ρ c main_arg7 (by decide), keep2 m ρ c main_arg7 (by decide)]
  exact (keep1 m ρ c main_arg7 (by decide)).trans rfl
theorem st12_v5 : W12 m ρ c (Proc.devRef .tc main_v5) = cast128 (m ((c : Thread nD τ).loc main_arg8)) := by
  rw [keep12 m ρ c main_v5 (by decide), keep11 m ρ c main_v5 (by decide), keep10 m ρ c main_v5 (by decide), keep9 m ρ c main_v5 (by decide), keep8 m ρ c main_v5 (by decide), keep7 m ρ c main_v5 (by decide), keep6 m ρ c main_v5 (by decide), keep5 m ρ c main_v5 (by decide), keep4 m ρ c main_v5 (by decide), keep3 m ρ c main_v5 (by decide), keep2 m ρ c main_v5 (by decide)]
  exact w1_v5 m ρ c
theorem st12_arg9 : W12 m ρ c (Proc.devRef .tc main_arg9) = m ((c : Thread nD τ).loc main_arg9) := by
  rw [keep12 m ρ c main_arg9 (by decide), keep11 m ρ c main_arg9 (by decide), keep10 m ρ c main_arg9 (by decide), keep9 m ρ c main_arg9 (by decide), keep8 m ρ c main_arg9 (by decide), keep7 m ρ c main_arg9 (by decide), keep6 m ρ c main_arg9 (by decide), keep5 m ρ c main_arg9 (by decide), keep4 m ρ c main_arg9 (by decide), keep3 m ρ c main_arg9 (by decide), keep2 m ρ c main_arg9 (by decide)]
  exact (keep1 m ρ c main_arg9 (by decide)).trans rfl
theorem st12_v6 : W12 m ρ c (Proc.devRef .tc main_v6) = cast2 (m ((c : Thread nD τ).loc main_arg10)) := by
  rw [keep12 m ρ c main_v6 (by decide), keep11 m ρ c main_v6 (by decide), keep10 m ρ c main_v6 (by decide), keep9 m ρ c main_v6 (by decide), keep8 m ρ c main_v6 (by decide), keep7 m ρ c main_v6 (by decide), keep6 m ρ c main_v6 (by decide), keep5 m ρ c main_v6 (by decide), keep4 m ρ c main_v6 (by decide), keep3 m ρ c main_v6 (by decide), keep2 m ρ c main_v6 (by decide)]
  exact w1_v6 m ρ c

/-! ## A bias vector as a one-row matrix: the reshape and the host's broadcast agree -/

theorem cast64_eq (v : FVec Ideal S64 .f32) : cast64 v = row64 (F := Ideal) v := by
  funext j
  exact (shapeCast_addUnit_apply ![64] v _ j).trans
    (broadcastInDim_apply _ _ v j (fun a => j a.succ) (fun a => by match a with | ⟨0, _⟩ => rfl)).symm
theorem cast128_eq (v : FVec Ideal S128 .f32) : cast128 v = row128 (F := Ideal) v := by
  funext j
  exact (shapeCast_addUnit_apply ![128] v _ j).trans
    (broadcastInDim_apply _ _ v j (fun a => j a.succ) (fun a => by match a with | ⟨0, _⟩ => rfl)).symm
theorem cast2_eq (v : FVec Ideal S2 .f32) : cast2 v = row2 (F := Ideal) v := by
  funext j
  exact (shapeCast_addUnit_apply ![2] v _ j).trans
    (broadcastInDim_apply _ _ v j (fun a => j a.succ) (fun a => by match a with | ⟨0, _⟩ => rfl)).symm

/-- The node features after layer 0, 1, 2, as functions of the launch arrays. -/
def H1 : FVec Ideal Cert.ReferenceIdeal.S50000x64 .f32 :=
  layerForm (F := Ideal) (m ((c : Thread nD τ).loc main_arg1)) (m ((c : Thread nD τ).loc main_arg2)) (We0 (F := Ideal) (m ((c : Thread nD τ).loc main_arg5))) (cast64 (be0 (F := Ideal) (m ((c : Thread nD τ).loc main_arg6)))) (m ((c : Thread nD τ).loc main_arg3)) (cast64 (m ((c : Thread nD τ).loc main_arg4))) (m ((c : Thread nD τ).loc main_arg0))
def H2 : FVec Ideal Cert.ReferenceIdeal.S50000x64 .f32 :=
  layerForm (F := Ideal) (m ((c : Thread nD τ).loc main_arg1)) (m ((c : Thread nD τ).loc main_arg2)) (We1 (F := Ideal) (m ((c : Thread nD τ).loc main_arg5))) (cast64 (be1 (F := Ideal) (m ((c : Thread nD τ).loc main_arg6)))) (m ((c : Thread nD τ).loc main_arg3)) (cast64 (m ((c : Thread nD τ).loc main_arg4))) (H1 m c)
def H3 : FVec Ideal Cert.ReferenceIdeal.S50000x64 .f32 :=
  layerForm (F := Ideal) (m ((c : Thread nD τ).loc main_arg1)) (m ((c : Thread nD τ).loc main_arg2)) (We2 (F := Ideal) (m ((c : Thread nD τ).loc main_arg5))) (cast64 (be2 (F := Ideal) (m ((c : Thread nD τ).loc main_arg6)))) (m ((c : Thread nD τ).loc main_arg3)) (cast64 (m ((c : Thread nD τ).loc main_arg4))) (H2 m c)

/-! ## The layers, boundary by boundary -/

section
variable
  (hE0 : ∀ (V : (c : Dev nD) → (b : Ref sig .tc) → Buf (Elt Ideal) ((c : Thread nD τ).loc b)) (c : Dev nD),
    (dat0 (F := Ideal) V c).arrAt 4 cfg0.N = edgeForm (F := Ideal) (V c main_v13) (V c main_arg2) (V c main_v15) (V c main_v18))
  (hN1 : ∀ (V : (c : Dev nD) → (b : Ref sig .tc) → Buf (Elt Ideal) ((c : Thread nD τ).loc b)) (c : Dev nD),
    (dat1 (F := Ideal) V c).arrAt 4 cfg1.N = nodeForm (F := Ideal) (V c main_arg0) (V c main_v22) (V c main_arg3) (V c main_v4))
  (hE2 : ∀ (V : (c : Dev nD) → (b : Ref sig .tc) → Buf (Elt Ideal) ((c : Thread nD τ).loc b)) (c : Dev nD),
    (dat2 (F := Ideal) V c).arrAt 4 cfg2.N = edgeForm (F := Ideal) (V c main_v30) (V c main_arg2) (V c main_v32) (V c main_v35))
  (hN3 : ∀ (V : (c : Dev nD) → (b : Ref sig .tc) → Buf (Elt Ideal) ((c : Thread nD τ).loc b)) (c : Dev nD),
    (dat3 (F := Ideal) V c).arrAt 4 cfg3.N = nodeForm (F := Ideal) (V c main_v23) (V c main_v39) (V c main_arg3) (V c main_v4))
  (hE4 : ∀ (V : (c : Dev nD) → (b : Ref sig .tc) → Buf (Elt Ideal) ((c : Thread nD τ).loc b)) (c : Dev nD),
    (dat4 (F := Ideal) V c).arrAt 4 cfg4.N = edgeForm (F := Ideal) (V c main_v47) (V c main_arg2) (V c main_v49) (V c main_v52))
  (hN5 : ∀ (V : (c : Dev nD) → (b : Ref sig .tc) → Buf (Elt Ideal) ((c : Thread nD τ).loc b)) (c : Dev nD),
    (dat5 (F := Ideal) V c).arrAt 4 cfg5.N = nodeForm (F := Ideal) (V c main_v40) (V c main_v56) (V c main_arg3) (V c main_v4))
  (hR6 : ∀ (V : (c : Dev nD) → (b : Ref sig .tc) → Buf (Elt Ideal) ((c : Thread nD τ).loc b)) (c : Dev nD),
    (dat6 (F := Ideal) V c).arrAt 5 cfg6.N = readForm (F := Ideal) (V c main_v57) (V c main_arg7) (V c main_v5) (V c main_arg9) (V c main_v6))
include hE0 hN1 hE2 hN3 hE4 hN5

/-! ### Layer 0 -/

theorem w2_v19 : W2 m ρ c (Proc.devRef .tc main_v19) = edgeForm (F := Ideal) (gatherForm (F := Ideal) (m ((c : Thread nD τ).loc main_arg1)) (m ((c : Thread nD τ).loc main_arg0))) (m ((c : Thread nD τ).loc main_arg2)) (We0 (F := Ideal) (m ((c : Thread nD τ).loc main_arg5))) (cast64 (be0 (F := Ideal) (m ((c : Thread nD τ).loc main_arg6)))) := by
  refine (W2_arr m ρ c 4).trans ((hE0 (V1 m ρ) c).trans ?_)
  have e1 : V1 m ρ c main_v13 = gatherForm (F := Ideal) (m ((c : Thread nD τ).loc main_arg1)) (m ((c : Thread nD τ).loc main_arg0)) := w1_v13 m ρ c
  have e2 : V1 m ρ c main_arg2 = m ((c : Thread nD τ).loc main_arg2) := st1_arg2 m ρ c
  have e3 : V1 m ρ c main_v15 = We0 (F := Ideal) (m ((c : Thread nD τ).loc main_arg5)) := w1_v15 m ρ c
  have e4 : V1 m ρ c main_v18 = cast64 (be0 (F := Ideal) (m ((c : Thread nD τ).loc main_arg6))) := w1_v18 m ρ c
  rw [e1, e2, e3, e4]
theorem w3_v22 : W3 m ρ c (Proc.devRef .tc main_v22) = aggrForm (F := Ideal) (m ((c : Thread nD τ).loc main_arg1)) (edgeForm (F := Ideal) (gatherForm (F := Ideal) (m ((c : Thread nD τ).loc main_arg1)) (m ((c : Thread nD τ).loc main_arg0))) (m ((c : Thread nD τ).loc main_arg2)) (We0 (F := Ideal) (m ((c : Thread nD τ).loc main_arg5))) (cast64 (be0 (F := Ideal) (m ((c : Thread nD τ).loc main_arg6))))) := by
  refine (host1_v22 (W2 m ρ c)).trans ?_
  rw [st2_v3 m ρ c, w2_v19 m ρ c hE0 hN1 hE2 hN3 hE4 hN5]
  rfl
theorem w4_v23 : W4 m ρ c (Proc.devRef .tc main_v23) = H1 m c := by
  refine (W4_arr m ρ c 4).trans ((hN1 (V3 m ρ) c).trans ?_)
  have e1 : V3 m ρ c main_arg0 = m ((c : Thread nD τ).loc main_arg0) := st3_arg0 m ρ c
  have e2 : V3 m ρ c main_v22 = aggrForm (F := Ideal) (m ((c : Thread nD τ).loc main_arg1)) (edgeForm (F := Ideal) (gatherForm (F := Ideal) (m ((c : Thread nD τ).loc main_arg1)) (m ((c : Thread nD τ).loc main_arg0))) (m ((c : Thread nD τ).loc main_arg2)) (We0 (F := Ideal) (m ((c : Thread nD τ).loc main_arg5))) (cast64 (be0 (F := Ideal) (m ((c : Thread nD τ).loc main_arg6))))) := w3_v22 m ρ c hE0 hN1 hE2 hN3 hE4 hN5
  have e3 : V3 m ρ c main_arg3 = m ((c : Thread nD τ).loc main_arg3) := st3_arg3 m ρ c
  have e4 : V3 m ρ c main_v4 = cast64 (m ((c : Thread nD τ).loc main_arg4)) := st3_v4 m ρ c
  rw [e1, e2, e3, e4]
  rfl
theorem w7_v23' : W7 m ρ c (Proc.devRef .tc main_v23) = H1 m c := by
  rw [keep7 m ρ c main_v23 (by decide), keep6 m ρ c main_v23 (by decide), keep5 m ρ c main_v23 (by decide)]
  exact w4_v23 m ρ c hE0 hN1 hE2 hN3 hE4 hN5

/-! ### Layer 1 -/

theorem w5_v30 : W5 m ρ c (Proc.devRef .tc main_v30) = gatherForm (F := Ideal) (m ((c : Thread nD τ).loc main_arg1)) (H1 m c) := by
  refine (host2_v30 (W4 m ρ c)).trans ?_
  rw [st4_v1 m ρ c, w4_v23 m ρ c hE0 hN1 hE2 hN3 hE4 hN5]
  rfl
theorem w5_v32 : W5 m ρ c (Proc.devRef .tc main_v32) = We1 (F := Ideal) (m ((c : Thread nD τ).loc main_arg5)) := by
  refine (host2_v32 (W4 m ρ c)).trans ?_
  rw [st4_arg5 m ρ c]
theorem w5_v35 : W5 m ρ c (Proc.devRef .tc main_v35) = cast64 (be1 (F := Ideal) (m ((c : Thread nD τ).loc main_arg6))) := by
  refine (host2_v35 (W4 m ρ c)).trans ?_
  rw [st4_arg6 m ρ c]

theorem w6_v36 : W6 m ρ c (Proc.devRef .tc main_v36) = edgeForm (F := Ideal) (gatherForm (F := Ideal) (m ((c : Thread nD τ).loc main_arg1)) (H1 m c)) (m ((c : Thread nD τ).loc main_arg2)) (We1 (F := Ideal) (m ((c : Thread nD τ).loc main_arg5))) (cast64 (be1 (F := Ideal) (m ((c : Thread nD τ).loc main_arg6)))) := by
  refine (W6_arr m ρ c 4).trans ((hE2 (V5 m ρ) c).trans ?_)
  have e1 : V5 m ρ c main_v30 = gatherForm (F := Ideal) (m ((c : Thread nD τ).loc main_arg1)) (H1 m c) := w5_v30 m ρ c hE0 hN1 hE2 hN3 hE4 hN5
  have e2 : V5 m ρ c main_arg2 = m ((c : Thread nD τ).loc main_arg2) := st5_arg2 m ρ c
  have e3 : V5 m ρ c main_v32 = We1 (F := Ideal) (m ((c : Thread nD τ).loc main_arg5)) := w5_v32 m ρ c hE0 hN1 hE2 hN3 hE4 hN5
  have e4 : V5 m ρ c main_v35 = cast64 (be1 (F := Ideal) (m ((c : Thread nD τ).loc main_arg6))) := w5_v35 m ρ c hE0 hN1 hE2 hN3 hE4 hN5
  rw [e1, e2, e3, e4]
theorem w7_v39 : W7 m ρ c (Proc.devRef .tc main_v39) = aggrForm (F := Ideal) (m ((c : Thread nD τ).loc main_arg1)) (edgeForm (F := Ideal) (gatherForm (F := Ideal) (m ((c : Thread nD τ).loc main_arg1)) (H1 m c)) (m ((c : Thread nD τ).loc main_arg2)) (We1 (F := Ideal) (m ((c : Thread nD τ).loc main_arg5))) (cast64 (be1 (F := Ideal) (m ((c : Thread nD τ).loc main_arg6))))) := by
  refine (host3_v39 (W6 m ρ c)).trans ?_
  rw [st6_v3 m ρ c, w6_v36 m ρ c hE0 hN1 hE2 hN3 hE4 hN5]
  rfl
theorem w8_v40 : W8 m ρ c (Proc.devRef .tc main_v40) = H2 m c := by
  refine (W8_arr m ρ c 4).trans ((hN3 (V7 m ρ) c).trans ?_)
  have e1 : V7 m ρ c main_v23 = H1 m c := w7_v23' m ρ c hE0 hN1 hE2 hN3 hE4 hN5
  have e2 : V7 m ρ c main_v39 = aggrForm (F := Ideal) (m ((c : Thread nD τ).loc main_arg1)) (edgeForm (F := Ideal) (gatherForm (F := Ideal) (m ((c : Thread nD τ).loc main_arg1)) (H1 m c)) (m ((c : Thread nD τ).loc main_arg2)) (We1 (F := Ideal) (m ((c : Thread nD τ).loc main_arg5))) (cast64 (be1 (F := Ideal) (m ((c : Thread nD τ).loc main_arg6))))) := w7_v39 m ρ c hE0 hN1 hE2 hN3 hE4 hN5
  have e3 : V7 m ρ c main_arg3 = m ((c : Thread nD τ).loc main_arg3) := st7_arg3 m ρ c
  have e4 : V7 m ρ c main_v4 = cast64 (m ((c : Thread nD τ).loc main_arg4)) := st7_v4 m ρ c
  rw [e1, e2, e3, e4]
  rfl
theorem w11_v40' : W11 m ρ c (Proc.devRef .tc main_v40) = H2 m c := by
  rw [keep11 m ρ c main_v40 (by decide), keep10 m ρ c main_v40 (by decide), keep9 m ρ c main_v40 (by decide)]
  exact w8_v40 m ρ c hE0 hN1 hE2 hN3 hE4 hN5

/-! ### Layer 2 -/

theorem w9_v47 : W9 m ρ c (Proc.devRef .tc main_v47) = gatherForm (F := Ideal) (m ((c : Thread nD τ).loc main_arg1)) (H2 m c) := by
  refine (host4_v47 (W8 m ρ c)).trans ?_
  rw [st8_v1 m ρ c, w8_v40 m ρ c hE0 hN1 hE2 hN3 hE4 hN5]
  rfl
theorem w9_v49 : W9 m ρ c (Proc.devRef .tc main_v49) = We2 (F := Ideal) (m ((c : Thread nD τ).loc main_arg5)) := by
  refine (host4_v49 (W8 m ρ c)).trans ?_
  rw [st8_arg5 m ρ c]
theorem w9_v52 : W9 m ρ c (Proc.devRef .tc main_v52) = cast64 (be2 (F := Ideal) (m ((c : Thread nD τ).loc main_arg6))) := by
  refine (host4_v52 (W8 m ρ c)).trans ?_
  rw [st8_arg6 m ρ c]

theorem w10_v53 : W10 m ρ c (Proc.devRef .tc main_v53) = edgeForm (F := Ideal) (gatherForm (F := Ideal) (m ((c : Thread nD τ).loc main_arg1)) (H2 m c)) (m ((c : Thread nD τ).loc main_arg2)) (We2 (F := Ideal) (m ((c : Thread nD τ).loc main_arg5))) (cast64 (be2 (F := Ideal) (m ((c : Thread nD τ).loc main_arg6)))) := by
  refine (W10_arr m ρ c 4).trans ((hE4 (V9 m ρ) c).trans ?_)
  have e1 : V9 m ρ c main_v47 = gatherForm (F := Ideal) (m ((c : Thread nD τ).loc main_arg1)) (H2 m c) := w9_v47 m ρ c hE0 hN1 hE2 hN3 hE4 hN5
  have e2 : V9 m ρ c main_arg2 = m ((c : Thread nD τ).loc main_arg2) := st9_arg2 m ρ c
  have e3 : V9 m ρ c main_v49 = We2 (F := Ideal) (m ((c : Thread nD τ).loc main_arg5)) := w9_v49 m ρ c hE0 hN1 hE2 hN3 hE4 hN5
  have e4 : V9 m ρ c main_v52 = cast64 (be2 (F := Ideal) (m ((c : Thread nD τ).loc main_arg6))) := w9_v52 m ρ c hE0 hN1 hE2 hN3 hE4 hN5
  rw [e1, e2, e3, e4]
theorem w11_v56 : W11 m ρ c (Proc.devRef .tc main_v56) = aggrForm (F := Ideal) (m ((c : Thread nD τ).loc main_arg1)) (edgeForm (F := Ideal) (gatherForm (F := Ideal) (m ((c : Thread nD τ).loc main_arg1)) (H2 m c)) (m ((c : Thread nD τ).loc main_arg2)) (We2 (F := Ideal) (m ((c : Thread nD τ).loc main_arg5))) (cast64 (be2 (F := Ideal) (m ((c : Thread nD τ).loc main_arg6))))) := by
  refine (host5_v56 (W10 m ρ c)).trans ?_
  rw [st10_v3 m ρ c, w10_v53 m ρ c hE0 hN1 hE2 hN3 hE4 hN5]
  rfl
theorem w12_v57 : W12 m ρ c (Proc.devRef .tc main_v57) = H3 m c := by
  refine (W12_arr m ρ c 4).trans ((hN5 (V11 m ρ) c).trans ?_)
  have e1 : V11 m ρ c main_v40 = H2 m c := w11_v40' m ρ c hE0 hN1 hE2 hN3 hE4 hN5
  have e2 : V11 m ρ c main_v56 = aggrForm (F := Ideal) (m ((c : Thread nD τ).loc main_arg1)) (edgeForm (F := Ideal) (gatherForm (F := Ideal) (m ((c : Thread nD τ).loc main_arg1)) (H2 m c)) (m ((c : Thread nD τ).loc main_arg2)) (We2 (F := Ideal) (m ((c : Thread nD τ).loc main_arg5))) (cast64 (be2 (F := Ideal) (m ((c : Thread nD τ).loc main_arg6))))) := w11_v56 m ρ c hE0 hN1 hE2 hN3 hE4 hN5
  have e3 : V11 m ρ c main_arg3 = m ((c : Thread nD τ).loc main_arg3) := st11_arg3 m ρ c
  have e4 : V11 m ρ c main_v4 = cast64 (m ((c : Thread nD τ).loc main_arg4)) := st11_v4 m ρ c
  rw [e1, e2, e3, e4]
  rfl

/-! ### The readout -/

include hR6
theorem w13_v58 : W13 m ρ c (Proc.devRef .tc main_v58) =
    readForm (F := Ideal) (H3 m c) (m ((c : Thread nD τ).loc main_arg7)) (cast128 (m ((c : Thread nD τ).loc main_arg8))) (m ((c : Thread nD τ).loc main_arg9)) (cast2 (m ((c : Thread nD τ).loc main_arg10))) := by
  refine (W13_arr m ρ c 5).trans ((hR6 (V12 m ρ) c).trans ?_)
  have e1 : V12 m ρ c main_v57 = H3 m c := w12_v57 m ρ c hE0 hN1 hE2 hN3 hE4 hN5
  have e2 : V12 m ρ c main_arg7 = m ((c : Thread nD τ).loc main_arg7) := st12_arg7 m ρ c
  have e3 : V12 m ρ c main_v5 = cast128 (m ((c : Thread nD τ).loc main_arg8)) := st12_v5 m ρ c
  have e4 : V12 m ρ c main_arg9 = m ((c : Thread nD τ).loc main_arg9) := st12_arg9 m ρ c
  have e5 : V12 m ρ c main_v6 = cast2 (m ((c : Thread nD τ).loc main_arg10)) := st12_v6 m ρ c
  rw [e1, e2, e3, e4, e5]

/-- The result buffer at the last boundary is the whole network of the launch arrays, in the host's spelling. -/
theorem result : W13 m ρ c (Proc.devRef .tc main_v58) =
    netForm (F := Ideal) row64 row128 row2 (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [w13_v58 m ρ c hE0 hN1 hE2 hN3 hE4 hN5 hR6]
  unfold H3 H2 H1 netForm
  simp only [cast64_eq, cast128_eq, cast2_eq]

end

end Cert.KernelIdeal.Chain

end
-- ==== Proof.EdgeValue.lean ====
/-
  The edge-message regions of the network (the first kernel call of each of its three layers), read as whole arrays at
  the exact instance: floats are extended reals, every operation is exact, and a change of float format is the identity.

  Each region walks a grid of 100 points. At point t its body loads rows 8000·t … 8000·t + 7999 of the gathered node
  rows A [800000, 64] and of the edge attributes B [800000, 16], and the whole of the layer's weight W [16, 64] and of its
  one-row bias b [1, 64]; it stores max(x0 + (x1 · x2 + x3), 0) into the same rows of the output, the matrix product
  accumulated into zero.

  Read at one entry (row p, column q of a block) the body's value is
      max(A[P, q] + (Σ_{k < 16} B[P, k] · W[k, q] + b[0, q]), 0),      P = 8000·t + p,
  and the whole-array expression Cert.Forms.edgeForm read at (P, q) is the same extended real — the same sum over the
  contracted axis, term by term; no algebraic law is needed, so nothing here asks the inputs to be finite. The 100 blocks
  of 8000 rows tile the 800000 rows (row r lies in the block of point r / 8000, and every point writes its block back),
  hence after the last point the region's output array IS edgeForm of the four arrays the region found.
  The three regions run the same arithmetic on different arrays; the entry lemmas are proved once.
-/
import proofs.«142640_j65085934403702_2_alg».proof.Proof.GenP.KernelIdeal.Frame
import proofs.«142640_j65085934403702_2_alg».proof.Proof.Forms
import Idealize.ShloMosaic.Lib.ValueIdx
import Idealize.ShloMosaic.Lib.Pipeline.Value
import Idealize.ShloMosaic.PureOps.Ideal.Laws

noncomputable section

namespace Cert.KernelIdeal.EdgeValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.GenP

/-! # The body's stored value at one entry -/

/-- The contraction's operand indices, coordinate by coordinate: output entry (i0, i1) and contraction coordinate k
    read the left operand at (i0, k) and the right operand at (k, i1). -/
theorem lhs_coord0 (i : S8000x64.Idx) (r : dot_S8000x16_S16x64_S8000x64_1_0_0_1_n_n.contr.Idx) : (dot_S8000x16_S16x64_S8000x64_1_0_0_1_n_n.lhsIdx i r 0).val = (i 0).val := by
  unfold DotDims.lhsIdx
  rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
  rfl
theorem lhs_coord1 (i : S8000x64.Idx) (r : dot_S8000x16_S16x64_S8000x64_1_0_0_1_n_n.contr.Idx) : (dot_S8000x16_S16x64_S8000x64_1_0_0_1_n_n.lhsIdx i r 1).val = (r ⟨0, by decide⟩).val :=
  dot_S8000x16_S16x64_S8000x64_1_0_0_1_n_n.lhsIdx_val_of_single rfl i r
theorem rhs_coord0 (i : S8000x64.Idx) (r : dot_S8000x16_S16x64_S8000x64_1_0_0_1_n_n.contr.Idx) : (dot_S8000x16_S16x64_S8000x64_1_0_0_1_n_n.rhsIdx i r 0).val = (r ⟨0, by decide⟩).val :=
  dot_S8000x16_S16x64_S8000x64_1_0_0_1_n_n.rhsIdx_val_of_single rfl i r
theorem rhs_coord1 (i : S8000x64.Idx) (r : dot_S8000x16_S16x64_S8000x64_1_0_0_1_n_n.contr.Idx) : (dot_S8000x16_S16x64_S8000x64_1_0_0_1_n_n.rhsIdx i r 1).val = (i 1).val := by
  unfold DotDims.rhsIdx
  rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
  rfl

/-- The block's matrix product into a zero accumulator, at row p and column q: the sum over the 16 edge features. -/
theorem matmul_at (x1 : FVec Ideal S8000x16 .bf16) (x2 : FVec Ideal S16x64 .bf16) (p : Fin 8000) (q : Fin 64) :
    matmul dot_S8000x16_S16x64_S8000x64_1_0_0_1_n_n none x1 x2 (constant S8000x64 .f32 0x00000000#32) (ix2 p q)
      = ∑ k : Fin 16, x1 (ix2 p k) * x2 (ix2 k q) := by
  simp only [matmul]
  rw [Ideal.matmul_constant_zero_apply, ← Equiv.sum_comp (contrEquiv1 dot_S8000x16_S16x64_S8000x64_1_0_0_1_n_n 16 rfl rfl).symm]
  refine Finset.sum_congr rfl fun k _ => ?_
  have hk := contrEquiv1_symm_val dot_S8000x16_S16x64_S8000x64_1_0_0_1_n_n 16 rfl rfl k
  have el : dot_S8000x16_S16x64_S8000x64_1_0_0_1_n_n.lhsIdx (ix2 p q) ((contrEquiv1 dot_S8000x16_S16x64_S8000x64_1_0_0_1_n_n 16 rfl rfl).symm k) = ix2 p k := funext fun a => Fin.ext (by
    match a with
    | ⟨0, _⟩ => exact lhs_coord0 _ _
    | ⟨1, _⟩ => exact (lhs_coord1 _ _).trans hk)
  have er : dot_S8000x16_S16x64_S8000x64_1_0_0_1_n_n.rhsIdx (ix2 p q) ((contrEquiv1 dot_S8000x16_S16x64_S8000x64_1_0_0_1_n_n 16 rfl rfl).symm k) = ix2 k q := funext fun a => Fin.ext (by
    match a with
    | ⟨0, _⟩ => exact (rhs_coord0 _ _).trans hk
    | ⟨1, _⟩ => exact rhs_coord1 _ _)
  rw [el, er]

/-- The one-row bias broadcast down the block's rows, at row p and column q. -/
theorem bias_at (x3 : FVec Ideal S1x64 .f32) (p : Fin 8000) (q : Fin 64) :
    broadcastTo S8000x64 x3 broadcasts_S1x64_S8000x64 (ix2 p q) = x3 (ix2 0 q) :=
  broadcastTo_apply x3 broadcasts_S1x64_S8000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- The body's stored value at row p, column q of its block: max(x0 + (x1 · x2 + x3), 0) entry by entry. -/
theorem pay_at (x0 : Vec Ideal S8000x64 .f32) (x1 : Vec Ideal S8000x16 .f32) (x2 : Vec Ideal S16x64 .f32) (x3 : Vec Ideal S1x64 .f32)
    (p : Fin 8000) (q : Fin 64) :
    k0_pay1 (F := Ideal) x0 x1 x2 x3 (ix2 p q)
      = max (x0 (ix2 p q) + ((∑ k : Fin 16, x1 (ix2 p k) * x2 (ix2 k q)) + x3 (ix2 0 q))) 0 := by
  unfold k0_pay1
  simp only [shapeCast_self]
  rw [maximumf_apply, addf_apply, addf_apply, broadcast_apply]
  rw [matmul_at, bias_at]
  simp only [truncf_apply]
  show max _ (Ideal.ofBits .f32 0x00000000#32) = _
  rw [Ideal.ofBits_zero_f32]

/-! # The whole-array form at one entry -/

/-- The whole-array contraction's operand indices, coordinate by coordinate. -/
theorem rlhs_coord0 (i : Cert.ReferenceIdeal.S800000x64.Idx) (r : Cert.ReferenceIdeal.dot_S800000x16_S16x64_S800000x64_1_0_0_1_n_n.contr.Idx) : (Cert.ReferenceIdeal.dot_S800000x16_S16x64_S800000x64_1_0_0_1_n_n.lhsIdx i r 0).val = (i 0).val := by
  unfold DotDims.lhsIdx
  rw [dif_neg (show ¬(0 : Fin Cert.ReferenceIdeal.S800000x16.rank) ∈ Cert.ReferenceIdeal.dot_S800000x16_S16x64_S800000x64_1_0_0_1_n_n.lhsBatch by decide), dif_pos (show (0 : Fin Cert.ReferenceIdeal.S800000x16.rank) ∈ Cert.ReferenceIdeal.dot_S800000x16_S16x64_S800000x64_1_0_0_1_n_n.lhsNonContracting by decide)]
  rfl
theorem rlhs_coord1 (i : Cert.ReferenceIdeal.S800000x64.Idx) (r : Cert.ReferenceIdeal.dot_S800000x16_S16x64_S800000x64_1_0_0_1_n_n.contr.Idx) : (Cert.ReferenceIdeal.dot_S800000x16_S16x64_S800000x64_1_0_0_1_n_n.lhsIdx i r 1).val = (r ⟨0, by decide⟩).val :=
  Cert.ReferenceIdeal.dot_S800000x16_S16x64_S800000x64_1_0_0_1_n_n.lhsIdx_val_of_single rfl i r
theorem rrhs_coord0 (i : Cert.ReferenceIdeal.S800000x64.Idx) (r : Cert.ReferenceIdeal.dot_S800000x16_S16x64_S800000x64_1_0_0_1_n_n.contr.Idx) : (Cert.ReferenceIdeal.dot_S800000x16_S16x64_S800000x64_1_0_0_1_n_n.rhsIdx i r 0).val = (r ⟨0, by decide⟩).val :=
  Cert.ReferenceIdeal.dot_S800000x16_S16x64_S800000x64_1_0_0_1_n_n.rhsIdx_val_of_single rfl i r
theorem rrhs_coord1 (i : Cert.ReferenceIdeal.S800000x64.Idx) (r : Cert.ReferenceIdeal.dot_S800000x16_S16x64_S800000x64_1_0_0_1_n_n.contr.Idx) : (Cert.ReferenceIdeal.dot_S800000x16_S16x64_S800000x64_1_0_0_1_n_n.rhsIdx i r 1).val = (i 1).val := by
  unfold DotDims.rhsIdx
  rw [dif_neg (show ¬(1 : Fin Cert.ReferenceIdeal.S16x64.rank) ∈ Cert.ReferenceIdeal.dot_S800000x16_S16x64_S800000x64_1_0_0_1_n_n.rhsBatch by decide), dif_pos (show (1 : Fin Cert.ReferenceIdeal.S16x64.rank) ∈ Cert.ReferenceIdeal.dot_S800000x16_S16x64_S800000x64_1_0_0_1_n_n.rhsNonContracting by decide)]
  rfl

/-- The whole-array matrix product at row p and column q: the same sum over the 16 edge features. -/
theorem dot_at (B : FVec Ideal Cert.ReferenceIdeal.S800000x16 .f32) (W : FVec Ideal Cert.ReferenceIdeal.S16x64 .f32) (p : Fin 800000) (q : Fin 64) :
    Host.dotGeneral Cert.ReferenceIdeal.dot_S800000x16_S16x64_S800000x64_1_0_0_1_n_n none B W (ix2 p q) = ∑ k : Fin 16, B (ix2 p k) * W (ix2 k q) := by
  simp only [Host.dotGeneral]
  rw [Ideal.dotGeneral_apply, ← Equiv.sum_comp (contrEquiv1 Cert.ReferenceIdeal.dot_S800000x16_S16x64_S800000x64_1_0_0_1_n_n 16 rfl rfl).symm]
  refine Finset.sum_congr rfl fun k _ => ?_
  have hk := contrEquiv1_symm_val Cert.ReferenceIdeal.dot_S800000x16_S16x64_S800000x64_1_0_0_1_n_n 16 rfl rfl k
  have el : Cert.ReferenceIdeal.dot_S800000x16_S16x64_S800000x64_1_0_0_1_n_n.lhsIdx (ix2 p q) ((contrEquiv1 Cert.ReferenceIdeal.dot_S800000x16_S16x64_S800000x64_1_0_0_1_n_n 16 rfl rfl).symm k) = ix2 p k := funext fun a => Fin.ext (by
    match a with
    | ⟨0, _⟩ => exact rlhs_coord0 _ _
    | ⟨1, _⟩ => exact (rlhs_coord1 _ _).trans hk)
  have er : Cert.ReferenceIdeal.dot_S800000x16_S16x64_S800000x64_1_0_0_1_n_n.rhsIdx (ix2 p q) ((contrEquiv1 Cert.ReferenceIdeal.dot_S800000x16_S16x64_S800000x64_1_0_0_1_n_n 16 rfl rfl).symm k) = ix2 k q := funext fun a => Fin.ext (by
    match a with
    | ⟨0, _⟩ => exact (rrhs_coord0 _ _).trans hk
    | ⟨1, _⟩ => exact rrhs_coord1 _ _)
  rw [el, er]

/-- The one-row bias broadcast down all rows, at row p and column q. -/
theorem rbias_at (b : FVec Ideal Cert.ReferenceIdeal.S1x64 .f32) (p : Fin 800000) (q : Fin 64) :
    broadcastInDim Cert.ReferenceIdeal.S800000x64 ![0, 1] Cert.ReferenceIdeal.Facts₀.bcast_S1x64_S800000x64_0_1 b (ix2 p q) = b (ix2 0 q) :=
  broadcastInDim_apply _ Cert.ReferenceIdeal.Facts₀.bcast_S1x64_S800000x64_0_1 b (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The zero splat at any entry. -/
theorem zero_at (i : Cert.ReferenceIdeal.S800000x64.Idx) :
    broadcastInDim Cert.ReferenceIdeal.S800000x64 ![] Cert.ReferenceIdeal.Facts₀.bcast_S_S800000x64 (constant (F := Ideal) Cert.ReferenceIdeal.S_ .f32 0x00000000#32) i = 0 := by
  rw [broadcastInDim_apply _ Cert.ReferenceIdeal.Facts₀.bcast_S_S800000x64 (constant (F := Ideal) Cert.ReferenceIdeal.S_ .f32 0x00000000#32) i ix0 (fun a => a.elim0)]
  show Ideal.ofBits .f32 0x00000000#32 = 0
  exact Ideal.ofBits_zero_f32

/-- The whole-array form at row p, column q: max(A + (B · W + b), 0) entry by entry. -/
theorem form_at (A : FVec Ideal Cert.ReferenceIdeal.S800000x64 .f32) (B : FVec Ideal Cert.ReferenceIdeal.S800000x16 .f32)
    (W : FVec Ideal Cert.ReferenceIdeal.S16x64 .f32) (b : FVec Ideal Cert.ReferenceIdeal.S1x64 .f32) (p : Fin 800000) (q : Fin 64) :
    Cert.Forms.edgeForm (F := Ideal) A B W b (ix2 p q)
      = max (A (ix2 p q) + ((∑ k : Fin 16, B (ix2 p k) * W (ix2 k q)) + b (ix2 0 q))) 0 := by
  unfold Cert.Forms.edgeForm
  rw [maximumf_apply, addf_apply, addf_apply, dot_at, rbias_at, zero_at]

/-! # One block against the whole array -/

/-- ONE BLOCK OF 8000 ROWS. If the body's four loaded blocks are rows T·8000 … T·8000 + 7999 of A and of B and the whole of
    W and of b, then the entry the body stores at (j0, j1) is the whole-array form's entry at (T·8000 + j0, j1): both are
    max(A + (Σ_k B·W + b), 0) there, the sum over the same 16 edge features. -/
theorem block_entry (x0 : Vec Ideal S8000x64 .f32) (x1 : Vec Ideal S8000x16 .f32) (x2 : Vec Ideal S16x64 .f32) (x3 : Vec Ideal S1x64 .f32)
    (A : FVec Ideal Cert.ReferenceIdeal.S800000x64 .f32) (B : FVec Ideal Cert.ReferenceIdeal.S800000x16 .f32)
    (W : FVec Ideal Cert.ReferenceIdeal.S16x64 .f32) (b : FVec Ideal Cert.ReferenceIdeal.S1x64 .f32) (T : Nat)
    (h0 : ∀ (y : S8000x64.Idx) (z : Cert.ReferenceIdeal.S800000x64.Idx), (z 0).val = T * 8000 + (y 0).val → (z 1).val = (y 1).val → x0 y = A z)
    (h1 : ∀ (y : S8000x16.Idx) (z : Cert.ReferenceIdeal.S800000x16.Idx), (z 0).val = T * 8000 + (y 0).val → (z 1).val = (y 1).val → x1 y = B z)
    (h2 : x2 = W) (h3 : x3 = b)
    (j : S8000x64.Idx) (i : Cert.ReferenceIdeal.S800000x64.Idx) (hi0 : (i 0).val = T * 8000 + (j 0).val) (hi1 : (i 1).val = (j 1).val) :
    k0_pay1 (F := Ideal) x0 x1 x2 x3 j = Cert.Forms.edgeForm (F := Ideal) A B W b i := by
  obtain ⟨p, q, rfl⟩ : ∃ (p : Fin 8000) (q : Fin 64), j = ix2 p q := ⟨j 0, j 1, eq_ix2 j⟩
  obtain ⟨P, Q, rfl⟩ : ∃ (P : Fin 800000) (Q : Fin 64), i = ix2 P Q := ⟨i 0, i 1, eq_ix2 i⟩
  have hQ : Q = q := Fin.ext hi1
  subst hQ
  have hP : P.val = T * 8000 + p.val := hi0
  rw [pay_at, form_at, h2, h3, h0 (ix2 p Q) (ix2 P Q) hP rfl]
  refine congrArg (fun s => max (A (ix2 P Q) + (s + b (ix2 0 Q))) 0) (Finset.sum_congr rfl fun k _ => ?_)
  rw [h1 (ix2 p k) (ix2 P k) hP rfl]

/-- The same for region 2's body, which is the same arithmetic (the bodies differ only in the numbering of their values). -/
theorem block_entry2 (x0 : Vec Ideal S8000x64 .f32) (x1 : Vec Ideal S8000x16 .f32) (x2 : Vec Ideal S16x64 .f32) (x3 : Vec Ideal S1x64 .f32)
    (A : FVec Ideal Cert.ReferenceIdeal.S800000x64 .f32) (B : FVec Ideal Cert.ReferenceIdeal.S800000x16 .f32)
    (W : FVec Ideal Cert.ReferenceIdeal.S16x64 .f32) (b : FVec Ideal Cert.ReferenceIdeal.S1x64 .f32) (T : Nat)
    (h0 : ∀ (y : S8000x64.Idx) (z : Cert.ReferenceIdeal.S800000x64.Idx), (z 0).val = T * 8000 + (y 0).val → (z 1).val = (y 1).val → x0 y = A z)
    (h1 : ∀ (y : S8000x16.Idx) (z : Cert.ReferenceIdeal.S800000x16.Idx), (z 0).val = T * 8000 + (y 0).val → (z 1).val = (y 1).val → x1 y = B z)
    (h2 : x2 = W) (h3 : x3 = b)
    (j : S8000x64.Idx) (i : Cert.ReferenceIdeal.S800000x64.Idx) (hi0 : (i 0).val = T * 8000 + (j 0).val) (hi1 : (i 1).val = (j 1).val) :
    k2_pay1 (F := Ideal) x0 x1 x2 x3 j = Cert.Forms.edgeForm (F := Ideal) A B W b i :=
  block_entry x0 x1 x2 x3 A B W b T h0 h1 h2 h3 j i hi0 hi1

/-- The same for region 4's body, which is the same arithmetic (the bodies differ only in the numbering of their values). -/
theorem block_entry4 (x0 : Vec Ideal S8000x64 .f32) (x1 : Vec Ideal S8000x16 .f32) (x2 : Vec Ideal S16x64 .f32) (x3 : Vec Ideal S1x64 .f32)
    (A : FVec Ideal Cert.ReferenceIdeal.S800000x64 .f32) (B : FVec Ideal Cert.ReferenceIdeal.S800000x16 .f32)
    (W : FVec Ideal Cert.ReferenceIdeal.S16x64 .f32) (b : FVec Ideal Cert.ReferenceIdeal.S1x64 .f32) (T : Nat)
    (h0 : ∀ (y : S8000x64.Idx) (z : Cert.ReferenceIdeal.S800000x64.Idx), (z 0).val = T * 8000 + (y 0).val → (z 1).val = (y 1).val → x0 y = A z)
    (h1 : ∀ (y : S8000x16.Idx) (z : Cert.ReferenceIdeal.S800000x16.Idx), (z 0).val = T * 8000 + (y 0).val → (z 1).val = (y 1).val → x1 y = B z)
    (h2 : x2 = W) (h3 : x3 = b)
    (j : S8000x64.Idx) (i : Cert.ReferenceIdeal.S800000x64.Idx) (hi0 : (i 0).val = T * 8000 + (j 0).val) (hi1 : (i 1).val = (j 1).val) :
    k4_pay1 (F := Ideal) x0 x1 x2 x3 j = Cert.Forms.edgeForm (F := Ideal) A B W b i :=
  block_entry x0 x1 x2 x3 A B W b T h0 h1 h2 h3 j i hi0 hi1

/-! # From blocks to the array -/

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- The printed index maps of region 0, decided over its 100 grid points: at point t the row-blocked windows (the gathered
    node rows, the edge attributes, the output) sit at block row t, column block 0; the weight and the bias at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t of region 0 writes back is block t of the whole-array form of the arrays the region found. -/
theorem flushed0_eq (c : Dev nD) (t : Fin cfg0.N) :
    (dat0 (F := Ideal) V c).flushed 4 t = ((cfg0.win 4).blk t).view.read (Elt Ideal)
      (Cert.Forms.edgeForm (F := Ideal) (V c main_v13) (V c main_arg2) (V c main_v15) (V c main_v18)) := by
  show (cfg0.win 4).cut (grid0.coords t) ((dat0 V c).after 4 t) = _
  rw [after0_4]
  unfold out0_4
  rw [View.canon_unit_zero hz]
  simp only [View.ld_unit_zero (S := S8000x64) hz, View.ld_unit_zero (S := S8000x16) hz, View.ld_unit_zero (S := S16x64) hz, View.ld_unit_zero (S := S1x64) hz]
  obtain ⟨e00, e01, e10, e11, e20, e21, e30, e31, e40, e41⟩ := idx_facts0 t
  funext j
  refine block_entry (iblk0 V c 0 t) (iblk0 V c 1 t) (iblk0 V c 2 t) (iblk0 V c 3 t)
    (V c main_v13) (V c main_arg2) (V c main_v15) (V c main_v18) t.val ?_ ?_ ?_ ?_ j (((cfg0.win 4).blk t).view.emb j) ?_ ?_
  · intro y z hz0 hz1
    show V c main_v13 (((cfg0.win 0).blk t).view.emb y) = V c main_v13 z
    refine congrArg _ (funext fun a => Fin.ext ?_)
    match a with
    | ⟨0, _⟩ => show win0_0.index t (0 : Fin 2) * 8000 + 1 * (y 0).val = (z 0).val; omega
    | ⟨1, _⟩ => show win0_0.index t (1 : Fin 2) * 64 + 1 * (y 1).val = (z 1).val; omega
  · intro y z hz0 hz1
    show V c main_arg2 (((cfg0.win 1).blk t).view.emb y) = V c main_arg2 z
    refine congrArg _ (funext fun a => Fin.ext ?_)
    match a with
    | ⟨0, _⟩ => show win0_1.index t (0 : Fin 2) * 8000 + 1 * (y 0).val = (z 0).val; omega
    | ⟨1, _⟩ => show win0_1.index t (1 : Fin 2) * 16 + 1 * (y 1).val = (z 1).val; omega
  · funext y
    show V c main_v15 (((cfg0.win 2).blk t).view.emb y) = V c main_v15 y
    refine congrArg _ (funext fun a => Fin.ext ?_)
    match a with
    | ⟨0, _⟩ => show win0_2.index t (0 : Fin 2) * 16 + 1 * (y 0).val = (y 0).val; omega
    | ⟨1, _⟩ => show win0_2.index t (1 : Fin 2) * 64 + 1 * (y 1).val = (y 1).val; omega
  · funext y
    show V c main_v18 (((cfg0.win 3).blk t).view.emb y) = V c main_v18 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · show win0_4.index t (0 : Fin 2) * 8000 + 1 * (j 0).val = t.val * 8000 + (j 0).val; omega
  · show win0_4.index t (1 : Fin 2) * 64 + 1 * (j 1).val = (j 1).val; omega

/-- An entry of the output array is in point t's block iff each coordinate is in the block's range on its axis. -/
theorem mem_blk0 (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v19).slice (win0_4.rect t)).set ↔ _
  rw [View.set_slice_whole, Rect.mem_set_unit]
  exact Iff.rfl

/-- The 100 blocks of 8000 rows tile the 800000 rows: row r is in the block of point r / 8000, which writes back. -/
theorem cover0 (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  obtain ⟨t, ht⟩ : ∃ t : Fin cfg0.N, t.val = (i 0).val / 8000 :=
    ⟨⟨(i 0).val / 8000, Nat.lt_of_lt_of_eq (by omega : (i 0).val / 8000 < 100) N_0.symm⟩, rfl⟩
  obtain ⟨e00, e01, e10, e11, e20, e21, e30, e31, e40, e41⟩ := idx_facts0 t
  refine ⟨t, flush0_4 t, ?_⟩
  rw [mem_blk0]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 64 ≤ (i 1).val ∧ (i 1).val < win0_4.index t (1 : Fin 2) * 64 + 64; omega

/-- THE OUTPUT ARRAY OF REGION 0 after all its grid points is the whole-array form of the arrays the region found. -/
theorem final0 (c : Dev nD) : (dat0 (F := Ideal) V c).arrAt 4 cfg0.N
    = Cert.Forms.edgeForm (F := Ideal) (V c main_v13) (V c main_arg2) (V c main_v15) (V c main_v18) :=
  (dat0 (F := Ideal) V c).arrAt_eq_of_cover 4 _ (fun t _ => flushed0_eq V c t) cover0

/-! ## Region 2 -/

/-- The printed index maps of region 2, decided over its 100 grid points: at point t the row-blocked windows (the gathered
    node rows, the edge attributes, the output) sit at block row t, column block 0; the weight and the bias at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t of region 2 writes back is block t of the whole-array form of the arrays the region found. -/
theorem flushed2_eq (c : Dev nD) (t : Fin cfg2.N) :
    (dat2 (F := Ideal) V c).flushed 4 t = ((cfg2.win 4).blk t).view.read (Elt Ideal)
      (Cert.Forms.edgeForm (F := Ideal) (V c main_v30) (V c main_arg2) (V c main_v32) (V c main_v35)) := by
  show (cfg2.win 4).cut (grid2.coords t) ((dat2 V c).after 4 t) = _
  rw [after2_4]
  unfold out2_4
  rw [View.canon_unit_zero hz]
  simp only [View.ld_unit_zero (S := S8000x64) hz, View.ld_unit_zero (S := S8000x16) hz, View.ld_unit_zero (S := S16x64) hz, View.ld_unit_zero (S := S1x64) hz]
  obtain ⟨e00, e01, e10, e11, e20, e21, e30, e31, e40, e41⟩ := idx_facts2 t
  funext j
  refine block_entry2 (iblk2 V c 0 t) (iblk2 V c 1 t) (iblk2 V c 2 t) (iblk2 V c 3 t)
    (V c main_v30) (V c main_arg2) (V c main_v32) (V c main_v35) t.val ?_ ?_ ?_ ?_ j (((cfg2.win 4).blk t).view.emb j) ?_ ?_
  · intro y z hz0 hz1
    show V c main_v30 (((cfg2.win 0).blk t).view.emb y) = V c main_v30 z
    refine congrArg _ (funext fun a => Fin.ext ?_)
    match a with
    | ⟨0, _⟩ => show win2_0.index t (0 : Fin 2) * 8000 + 1 * (y 0).val = (z 0).val; omega
    | ⟨1, _⟩ => show win2_0.index t (1 : Fin 2) * 64 + 1 * (y 1).val = (z 1).val; omega
  · intro y z hz0 hz1
    show V c main_arg2 (((cfg2.win 1).blk t).view.emb y) = V c main_arg2 z
    refine congrArg _ (funext fun a => Fin.ext ?_)
    match a with
    | ⟨0, _⟩ => show win2_1.index t (0 : Fin 2) * 8000 + 1 * (y 0).val = (z 0).val; omega
    | ⟨1, _⟩ => show win2_1.index t (1 : Fin 2) * 16 + 1 * (y 1).val = (z 1).val; omega
  · funext y
    show V c main_v32 (((cfg2.win 2).blk t).view.emb y) = V c main_v32 y
    refine congrArg _ (funext fun a => Fin.ext ?_)
    match a with
    | ⟨0, _⟩ => show win2_2.index t (0 : Fin 2) * 16 + 1 * (y 0).val = (y 0).val; omega
    | ⟨1, _⟩ => show win2_2.index t (1 : Fin 2) * 64 + 1 * (y 1).val = (y 1).val; omega
  · funext y
    show V c main_v35 (((cfg2.win 3).blk t).view.emb y) = V c main_v35 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 64 + 1 * (y 1).val = (y 1).val; omega
  · show win2_4.index t (0 : Fin 2) * 8000 + 1 * (j 0).val = t.val * 8000 + (j 0).val; omega
  · show win2_4.index t (1 : Fin 2) * 64 + 1 * (j 1).val = (j 1).val; omega

/-- An entry of the output array is in point t's block iff each coordinate is in the block's range on its axis. -/
theorem mem_blk2 (t : Fin cfg2.N) (i : S800000x64.Idx) :
    i ∈ ((cfg2.win 4).blk t).view.set ↔ ∀ a : Fin 2, win2_4.index t a * S8000x64.size a ≤ (i a).val ∧ (i a).val < win2_4.index t a * S8000x64.size a + S8000x64.size a := by
  show i ∈ ((View.whole main_v36).slice (win2_4.rect t)).set ↔ _
  rw [View.set_slice_whole, Rect.mem_set_unit]
  exact Iff.rfl

/-- The 100 blocks of 8000 rows tile the 800000 rows: row r is in the block of point r / 8000, which writes back. -/
theorem cover2 (i : S800000x64.Idx) :
    ∃ t : Fin cfg2.N, (cfg2.win 4).flush t = true ∧ i ∈ ((cfg2.win 4).blk t).view.set := by
  have hi0 : (i 0).val < 800000 := (i 0).isLt
  have hi1 : (i 1).val < 64 := (i 1).isLt
  obtain ⟨t, ht⟩ : ∃ t : Fin cfg2.N, t.val = (i 0).val / 8000 :=
    ⟨⟨(i 0).val / 8000, Nat.lt_of_lt_of_eq (by omega : (i 0).val / 8000 < 100) N_2.symm⟩, rfl⟩
  obtain ⟨e00, e01, e10, e11, e20, e21, e30, e31, e40, e41⟩ := idx_facts2 t
  refine ⟨t, flush2_4 t, ?_⟩
  rw [mem_blk2]
  intro a
  match a with
  | ⟨0, _⟩ => show win2_4.index t (0 : Fin 2) * 8000 ≤ (i 0).val ∧ (i 0).val < win2_4.index t (0 : Fin 2) * 8000 + 8000; omega
  | ⟨1, _⟩ => show win2_4.index t (1 : Fin 2) * 64 ≤ (i 1).val ∧ (i 1).val < win2_4.index t (1 : Fin 2) * 64 + 64; omega

/-- THE OUTPUT ARRAY OF REGION 2 after all its grid points is the whole-array form of the arrays the region found. -/
theorem final2 (c : Dev nD) : (dat2 (F := Ideal) V c).arrAt 4 cfg2.N
    = Cert.Forms.edgeForm (F := Ideal) (V c main_v30) (V c main_arg2) (V c main_v32) (V c main_v35) :=
  (dat2 (F := Ideal) V c).arrAt_eq_of_cover 4 _ (fun t _ => flushed2_eq V c t) cover2

/-! ## Region 4 -/

/-- The printed index maps of region 4, decided over its 100 grid points: at point t the row-blocked windows (the gathered
    node rows, the edge attributes, the output) sit at block row t, column block 0; the weight and the bias at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t of region 4 writes back is block t of the whole-array form of the arrays the region found. -/
theorem flushed4_eq (c : Dev nD) (t : Fin cfg4.N) :
    (dat4 (F := Ideal) V c).flushed 4 t = ((cfg4.win 4).blk t).view.read (Elt Ideal)
      (Cert.Forms.edgeForm (F := Ideal) (V c main_v47) (V c main_arg2) (V c main_v49) (V c main_v52)) := by
  show (cfg4.win 4).cut (grid4.coords t) ((dat4 V c).after 4 t) = _
  rw [after4_4]
  unfold out4_4
  rw [View.canon_unit_zero hz]
  simp only [View.ld_unit_zero (S := S8000x64) hz, View.ld_unit_zero (S := S8000x16) hz, View.ld_unit_zero (S := S16x64) hz, View.ld_unit_zero (S := S1x64) hz]
  obtain ⟨e00, e01, e10, e11, e20, e21, e30, e31, e40, e41⟩ := idx_facts4 t
  funext j
  refine block_entry4 (iblk4 V c 0 t) (iblk4 V c 1 t) (iblk4 V c 2 t) (iblk4 V c 3 t)
    (V c main_v47) (V c main_arg2) (V c main_v49) (V c main_v52) t.val ?_ ?_ ?_ ?_ j (((cfg4.win 4).blk t).view.emb j) ?_ ?_
  · intro y z hz0 hz1
    show V c main_v47 (((cfg4.win 0).blk t).view.emb y) = V c main_v47 z
    refine congrArg _ (funext fun a => Fin.ext ?_)
    match a with
    | ⟨0, _⟩ => show win4_0.index t (0 : Fin 2) * 8000 + 1 * (y 0).val = (z 0).val; omega
    | ⟨1, _⟩ => show win4_0.index t (1 : Fin 2) * 64 + 1 * (y 1).val = (z 1).val; omega
  · intro y z hz0 hz1
    show V c main_arg2 (((cfg4.win 1).blk t).view.emb y) = V c main_arg2 z
    refine congrArg _ (funext fun a => Fin.ext ?_)
    match a with
    | ⟨0, _⟩ => show win4_1.index t (0 : Fin 2) * 8000 + 1 * (y 0).val = (z 0).val; omega
    | ⟨1, _⟩ => show win4_1.index t (1 : Fin 2) * 16 + 1 * (y 1).val = (z 1).val; omega
  · funext y
    show V c main_v49 (((cfg4.win 2).blk t).view.emb y) = V c main_v49 y
    refine congrArg _ (funext fun a => Fin.ext ?_)
    match a with
    | ⟨0, _⟩ => show win4_2.index t (0 : Fin 2) * 16 + 1 * (y 0).val = (y 0).val; omega
    | ⟨1, _⟩ => show win4_2.index t (1 : Fin 2) * 64 + 1 * (y 1).val = (y 1).val; omega
  · funext y
    show V c main_v52 (((cfg4.win 3).blk t).view.emb y) = V c main_v52 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 64 + 1 * (y 1).val = (y 1).val; omega
  · show win4_4.index t (0 : Fin 2) * 8000 + 1 * (j 0).val = t.val * 8000 + (j 0).val; omega
  · show win4_4.index t (1 : Fin 2) * 64 + 1 * (j 1).val = (j 1).val; omega

/-- An entry of the output array is in point t's block iff each coordinate is in the block's range on its axis. -/
theorem mem_blk4 (t : Fin cfg4.N) (i : S800000x64.Idx) :
    i ∈ ((cfg4.win 4).blk t).view.set ↔ ∀ a : Fin 2, win4_4.index t a * S8000x64.size a ≤ (i a).val ∧ (i a).val < win4_4.index t a * S8000x64.size a + S8000x64.size a := by
  show i ∈ ((View.whole main_v53).slice (win4_4.rect t)).set ↔ _
  rw [View.set_slice_whole, Rect.mem_set_unit]
  exact Iff.rfl

/-- The 100 blocks of 8000 rows tile the 800000 rows: row r is in the block of point r / 8000, which writes back. -/
theorem cover4 (i : S800000x64.Idx) :
    ∃ t : Fin cfg4.N, (cfg4.win 4).flush t = true ∧ i ∈ ((cfg4.win 4).blk t).view.set := by
  have hi0 : (i 0).val < 800000 := (i 0).isLt
  have hi1 : (i 1).val < 64 := (i 1).isLt
  obtain ⟨t, ht⟩ : ∃ t : Fin cfg4.N, t.val = (i 0).val / 8000 :=
    ⟨⟨(i 0).val / 8000, Nat.lt_of_lt_of_eq (by omega : (i 0).val / 8000 < 100) N_4.symm⟩, rfl⟩
  obtain ⟨e00, e01, e10, e11, e20, e21, e30, e31, e40, e41⟩ := idx_facts4 t
  refine ⟨t, flush4_4 t, ?_⟩
  rw [mem_blk4]
  intro a
  match a with
  | ⟨0, _⟩ => show win4_4.index t (0 : Fin 2) * 8000 ≤ (i 0).val ∧ (i 0).val < win4_4.index t (0 : Fin 2) * 8000 + 8000; omega
  | ⟨1, _⟩ => show win4_4.index t (1 : Fin 2) * 64 ≤ (i 1).val ∧ (i 1).val < win4_4.index t (1 : Fin 2) * 64 + 64; omega

/-- THE OUTPUT ARRAY OF REGION 4 after all its grid points is the whole-array form of the arrays the region found. -/
theorem final4 (c : Dev nD) : (dat4 (F := Ideal) V c).arrAt 4 cfg4.N
    = Cert.Forms.edgeForm (F := Ideal) (V c main_v47) (V c main_arg2) (V c main_v49) (V c main_v52) :=
  (dat4 (F := Ideal) V c).arrAt_eq_of_cover 4 _ (fun t _ => flushed4_eq V c t) cover4

end Cert.KernelIdeal.EdgeValue

end
-- ==== Proof.NodeValue.lean ====
/-
  The node update of the graph network, read off the three regions that run it.

  One entry of the update depends on one row of the node features, the same row of the aggregated messages, one column of
  the weight matrix and one entry of the bias row:
      z   = (sum over k of (1 * h[r,k] + g[r,k]) * W[k,q]) + b[0,q]
      out = z if z >= 0 else 0.01 * z,
  with 1, 0 and 0.01 the same 32-bit float words on both sides (never evaluated here).  The whole-array form of
  `Cert.Forms.nodeForm` reads at (r, q) as that entry of the whole arrays; the body's stored block reads at (p, q) as that
  entry of the loaded blocks.  A grid point t holds rows 10000 t ... 10000 t + 9999 of the features, the messages and the
  result, and the whole weight matrix and bias row; so what point t writes back is block t of the whole-array form, the five
  blocks cover the 50000 rows, and the result array ends as the whole-array form of the arrays the region found.
-/
import proofs.«142640_j65085934403702_2_alg».proof.Proof.GenP.KernelIdeal.Frame
import proofs.«142640_j65085934403702_2_alg».proof.Proof.Forms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

/-! ## One entry of the update -/

/-- The affine part of one entry: a row of features `h`, the same row of aggregated messages `g`, a column of weights `w`
    and a bias entry `b`. -/
def affineAt (h g w : Fin 64 → EReal) (b : EReal) : EReal :=
  (∑ k : Fin 64, (Ideal.ofBits .f32 0x3F800000#32 * h k + g k) * w k) + b

/-- The leaky rectifier of slope 0.01 (as a 32-bit float word) on one value. -/
def leaky (z : EReal) : EReal :=
  Scalar.select (FloatOps.cmpf (F := Ideal) (φ := .f32) .oge z (Ideal.ofBits .f32 0x00000000#32)) z
    (Ideal.ofBits .f32 0x3C23D70A#32 * z)

/-! ## The two contractions at an index: one sum over the 64 contracted coordinates -/

/-- The left operand's row coordinate is the result's. -/
theorem blockProduct_lhs0 (i : S10000x64.Idx) (k : dot_S10000x64_S64x64_S10000x64_1_0_0_1_n_n.contr.Idx) : (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contracted one. -/
theorem blockProduct_lhs1 (i : S10000x64.Idx) (k : dot_S10000x64_S64x64_S10000x64_1_0_0_1_n_n.contr.Idx) : (dot_S10000x64_S64x64_S10000x64_1_0_0_1_n_n.lhsIdx i k 1).val = (k ⟨0, by decide⟩).val :=
  dot_S10000x64_S64x64_S10000x64_1_0_0_1_n_n.lhsIdx_val_of_single rfl i k
/-- The right operand's row coordinate is the contracted one. -/
theorem blockProduct_rhs0 (i : S10000x64.Idx) (k : dot_S10000x64_S64x64_S10000x64_1_0_0_1_n_n.contr.Idx) : (dot_S10000x64_S64x64_S10000x64_1_0_0_1_n_n.rhsIdx i k 0).val = (k ⟨0, by decide⟩).val :=
  dot_S10000x64_S64x64_S10000x64_1_0_0_1_n_n.rhsIdx_val_of_single rfl i k
/-- The right operand's column coordinate is the result's. -/
theorem blockProduct_rhs1 (i : S10000x64.Idx) (k : dot_S10000x64_S64x64_S10000x64_1_0_0_1_n_n.contr.Idx) : (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's matrix product of two blocks into a zero accumulator, at row `r` and column `q`: the sum over the 64 contracted coordinates. -/
theorem blockProduct_apply (A : FVec Ideal S10000x64 .bf16) (B : FVec Ideal S64x64 .bf16) (r : Fin 10000) (q : Fin 64) :
    matmul dot_S10000x64_S64x64_S10000x64_1_0_0_1_n_n none A B (constant S10000x64 .f32 0x00000000#32) (ix2 r q) = ∑ k : Fin 64, A (ix2 r k) * B (ix2 k q) := by
  show FloatOps.matmul dot_S10000x64_S64x64_S10000x64_1_0_0_1_n_n none A B (constant S10000x64 .f32 0x00000000#32) (ix2 r q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k := funext fun a => Fin.ext (by
    match a with
    | ⟨0, _⟩ => exact blockProduct_lhs0 _ _
    | ⟨1, _⟩ => exact (blockProduct_lhs1 _ _).trans hk)
  have er : dot_S10000x64_S64x64_S10000x64_1_0_0_1_n_n.rhsIdx (ix2 r q) ((contrEquiv1 dot_S10000x64_S64x64_S10000x64_1_0_0_1_n_n 64 rfl rfl).symm k) = ix2 k q := funext fun a => Fin.ext (by
    match a with
    | ⟨0, _⟩ => exact (blockProduct_rhs0 _ _).trans hk
    | ⟨1, _⟩ => exact blockProduct_rhs1 _ _)
  rw [el, er]

/-- The left operand's row coordinate is the result's. -/
theorem wholeProduct_lhs0 (i : Cert.ReferenceIdeal.S50000x64.Idx) (k : Cert.ReferenceIdeal.dot_S50000x64_S64x64_S50000x64_1_0_0_1_n_n.contr.Idx) : (Cert.ReferenceIdeal.dot_S50000x64_S64x64_S50000x64_1_0_0_1_n_n.lhsIdx i k 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
/-- The left operand's column coordinate is the contracted one. -/
theorem wholeProduct_lhs1 (i : Cert.ReferenceIdeal.S50000x64.Idx) (k : Cert.ReferenceIdeal.dot_S50000x64_S64x64_S50000x64_1_0_0_1_n_n.contr.Idx) : (Cert.ReferenceIdeal.dot_S50000x64_S64x64_S50000x64_1_0_0_1_n_n.lhsIdx i k 1).val = (k ⟨0, by decide⟩).val :=
  Cert.ReferenceIdeal.dot_S50000x64_S64x64_S50000x64_1_0_0_1_n_n.lhsIdx_val_of_single rfl i k
/-- The right operand's row coordinate is the contracted one. -/
theorem wholeProduct_rhs0 (i : Cert.ReferenceIdeal.S50000x64.Idx) (k : Cert.ReferenceIdeal.dot_S50000x64_S64x64_S50000x64_1_0_0_1_n_n.contr.Idx) : (Cert.ReferenceIdeal.dot_S50000x64_S64x64_S50000x64_1_0_0_1_n_n.rhsIdx i k 0).val = (k ⟨0, by decide⟩).val :=
  Cert.ReferenceIdeal.dot_S50000x64_S64x64_S50000x64_1_0_0_1_n_n.rhsIdx_val_of_single rfl i k
/-- The right operand's column coordinate is the result's. -/
theorem wholeProduct_rhs1 (i : Cert.ReferenceIdeal.S50000x64.Idx) (k : Cert.ReferenceIdeal.dot_S50000x64_S64x64_S50000x64_1_0_0_1_n_n.contr.Idx) : (Cert.ReferenceIdeal.dot_S50000x64_S64x64_S50000x64_1_0_0_1_n_n.rhsIdx i k 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- The host's matrix product of the whole arrays, at row `r` and column `q`: the sum over the 64 contracted coordinates. -/
theorem wholeProduct_apply (A : FVec Ideal Cert.ReferenceIdeal.S50000x64 .f32) (B : FVec Ideal Cert.ReferenceIdeal.S64x64 .f32) (r : Fin 50000) (q : Fin 64) :
    Host.dotGeneral Cert.ReferenceIdeal.dot_S50000x64_S64x64_S50000x64_1_0_0_1_n_n none A B (ix2 r q) = ∑ k : Fin 64, A (ix2 r k) * B (ix2 k q) := by
  show FloatOps.dotGeneral Cert.ReferenceIdeal.dot_S50000x64_S64x64_S50000x64_1_0_0_1_n_n none .single A B (ix2 r q) = _
  rw [Ideal.dotGeneral_apply, ← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 r q) ((contrEquiv1 Cert.ReferenceIdeal.dot_S50000x64_S64x64_S50000x64_1_0_0_1_n_n 64 rfl rfl).symm k) = ix2 r k := funext fun a => Fin.ext (by
    match a with
    | ⟨0, _⟩ => exact wholeProduct_lhs0 _ _
    | ⟨1, _⟩ => exact (wholeProduct_lhs1 _ _).trans hk)
  have er : Cert.ReferenceIdeal.dot_S50000x64_S64x64_S50000x64_1_0_0_1_n_n.rhsIdx (ix2 r q) ((contrEquiv1 Cert.ReferenceIdeal.dot_S50000x64_S64x64_S50000x64_1_0_0_1_n_n 64 rfl rfl).symm k) = ix2 k q := funext fun a => Fin.ext (by
    match a with
    | ⟨0, _⟩ => exact (wholeProduct_rhs0 _ _).trans hk
    | ⟨1, _⟩ => exact wholeProduct_rhs1 _ _)
  rw [el, er]

/-! ## The body's stored block at an index -/

/-- The first region's stored block at row `p`, column `q`: the update's entry of the loaded blocks. -/
theorem payload1_apply (x0 x1 : FVec Ideal S10000x64 .f32) (x2 : FVec Ideal S64x64 .f32) (x3 : FVec Ideal S1x64 .f32)
    (p : Fin 10000) (q : Fin 64) :
    Gen.k1_pay1 (F := Ideal) x0 x1 x2 x3 (ix2 p q)
      = leaky (affineAt (fun k => x0 (ix2 p k)) (fun k => x1 (ix2 p k)) (fun k => x2 (ix2 k q)) (x3 (ix2 (0 : Fin 1) q))) := by
  unfold Gen.k1_pay1
  simp only [select_apply, cmpf_apply, mulf_apply, addf_apply, broadcast_apply, shapeCast_self, blockProduct_apply,
    broadcastTo_1b_ab_apply, truncf_apply]
  rfl

/-- The later regions' stored block (the same operations, the features' block passed through one more identity cast). -/
theorem payload3_apply (x0 x1 : FVec Ideal S10000x64 .f32) (x2 : FVec Ideal S64x64 .f32) (x3 : FVec Ideal S1x64 .f32)
    (p : Fin 10000) (q : Fin 64) :
    Gen.k3_pay1 (F := Ideal) x0 x1 x2 x3 (ix2 p q)
      = leaky (affineAt (fun k => x0 (ix2 p k)) (fun k => x1 (ix2 p k)) (fun k => x2 (ix2 k q)) (x3 (ix2 (0 : Fin 1) q))) := by
  unfold Gen.k3_pay1
  simp only [select_apply, cmpf_apply, mulf_apply, addf_apply, broadcast_apply, shapeCast_self, blockProduct_apply,
    broadcastTo_1b_ab_apply, truncf_apply]
  rfl

/-- The last region's stored block: the same operations as the one before it, value for value. -/
theorem payload5_apply (x0 x1 : FVec Ideal S10000x64 .f32) (x2 : FVec Ideal S64x64 .f32) (x3 : FVec Ideal S1x64 .f32)
    (p : Fin 10000) (q : Fin 64) :
    Gen.k5_pay1 (F := Ideal) x0 x1 x2 x3 (ix2 p q)
      = leaky (affineAt (fun k => x0 (ix2 p k)) (fun k => x1 (ix2 p k)) (fun k => x2 (ix2 k q)) (x3 (ix2 (0 : Fin 1) q))) :=
  payload3_apply x0 x1 x2 x3 p q

/-! ## The whole-array form at an index -/

/-- The bias row broadcast along the rows reads, at `(r, q)`, the row's entry `q`. -/
theorem biasRow_apply (b : FVec Ideal Cert.ReferenceIdeal.S1x64 .f32) (r : Fin 50000) (q : Fin 64) :
    broadcastInDim Cert.ReferenceIdeal.S50000x64 ![0, 1] Cert.ReferenceIdeal.Facts₀.bcast_S1x64_S50000x64_0_1 b (ix2 r q) = b (ix2 (0 : Fin 1) q) :=
  broadcastInDim_apply _ Cert.ReferenceIdeal.Facts₀.bcast_S1x64_S50000x64_0_1 b (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

/-- The whole-array form of the update at row `r`, column `q`: the update's entry of the whole arrays. -/
theorem nodeForm_apply (H G : FVec Ideal Cert.ReferenceIdeal.S50000x64 .f32) (Wn : FVec Ideal Cert.ReferenceIdeal.S64x64 .f32)
    (b : FVec Ideal Cert.ReferenceIdeal.S1x64 .f32) (r : Fin 50000) (q : Fin 64) :
    Cert.Forms.nodeForm (F := Ideal) H G Wn b (ix2 r q)
      = leaky (affineAt (fun k => H (ix2 r k)) (fun k => G (ix2 r k)) (fun k => Wn (ix2 k q)) (b (ix2 (0 : Fin 1) q))) := by
  unfold Cert.Forms.nodeForm Cert.Forms.nodeLin
  simp only [select_apply, cmpf_apply, mulf_apply, addf_apply, wholeProduct_apply]
  rw [biasRow_apply]
  rfl

/-! ## From blocks to the array -/

/-- Two entries of the update agree when their rows, column and bias entry agree. -/
theorem affineAt_congr {h h' g g' w w' : Fin 64 → EReal} {b b' : EReal} (hh : ∀ k, h k = h' k) (hg : ∀ k, g k = g' k)
    (hw : ∀ k, w k = w' k) (hb : b = b') : affineAt h g w b = affineAt h' g' w' b' := by
  obtain rfl : h = h' := funext hh
  obtain rfl : g = g' := funext hg
  obtain rfl : w = w' := funext hw
  subst hb
  rfl

theorem zeroOffsets : (![0, 0] : Fin 2 → Nat) = fun _ => 0 := funext fun a => by fin_cases a <;> rfl

variable (V : (c : Dev nD) → (b : Ref sig .tc) → Buf (Elt Ideal) ((c : Thread nD τ).loc b))

/-! ### Region 1 -/

/-- The printed index maps over the five grid points: the features', the messages' and the result's block index is
    `(t, 0)`; the weights' and the bias row's is `(0, 0)`. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the whole-array form of the arrays the region found. -/
theorem flushed1_eq (c : Dev nD) (t : Fin cfg1.N) :
    (GenP.dat1 (F := Ideal) V c).flushed 4 t = ((cfg1.win 4).blk t).view.read (Elt Ideal)
      (Cert.Forms.nodeForm (F := Ideal) (V c main_arg0) (V c main_v22) (V c main_arg3) (V c main_v4)) := by
  show (cfg1.win 4).cut (grid1.coords t) ((GenP.dat1 V c).after 4 t) = _
  rw [GenP.after1_4]
  unfold GenP.out1_4
  rw [View.canon_unit_zero zeroOffsets]
  simp only [View.ld_unit_zero (S := S10000x64) zeroOffsets, View.ld_unit_zero (S := S64x64) zeroOffsets, View.ld_unit_zero (S := S1x64) zeroOffsets]
  obtain ⟨e00, e01, e10, e11, e20, e21, e30, e31, e40, e41⟩ := blockIndex1 t
  have ht : t.val < 5 := lt_of_lt_of_eq t.isLt GenP.N_1
  funext j
  obtain ⟨p, q, rfl⟩ : ∃ (p : Fin 10000) (q : Fin 64), j = ix2 p q := ⟨j 0, j 1, eq_ix2 j⟩
  have hrow : 10000 * t.val + p.val < 50000 := by have := p.isLt; omega
  have hemb : ((cfg1.win 4).blk t).view.emb (ix2 p q) = ix2 (⟨10000 * t.val + p.val, hrow⟩ : Fin 50000) q := by
    funext a; apply Fin.ext
    match a with
    | ⟨0, _⟩ => show win1_4.index t (0 : Fin 2) * 10000 + 1 * p.val = 10000 * t.val + p.val; rw [e40]; omega
    | ⟨1, _⟩ => show win1_4.index t (1 : Fin 2) * 64 + 1 * q.val = q.val; rw [e41]; omega
  show Gen.k1_pay1 (F := Ideal) (GenP.iblk1 V c 0 t) (GenP.iblk1 V c 1 t) (GenP.iblk1 V c 2 t) (GenP.iblk1 V c 3 t) (ix2 p q)
    = Cert.Forms.nodeForm (F := Ideal) (V c main_arg0) (V c main_v22) (V c main_arg3) (V c main_v4) (((cfg1.win 4).blk t).view.emb (ix2 p q))
  rw [hemb, nodeForm_apply]
  refine (payload1_apply (GenP.iblk1 V c 0 t) (GenP.iblk1 V c 1 t) (GenP.iblk1 V c 2 t) (GenP.iblk1 V c 3 t) p q).trans (congrArg leaky (affineAt_congr (fun k => ?_) (fun k => ?_) (fun k => ?_) ?_))
  · show V c main_arg0 (((cfg1.win 0).blk t).view.emb (ix2 p k)) = V c main_arg0 (ix2 (⟨10000 * t.val + p.val, hrow⟩ : Fin 50000) k)
    refine congrArg (V c main_arg0) (funext fun a => Fin.ext ?_)
    match a with
    | ⟨0, _⟩ => show win1_0.index t (0 : Fin 2) * 10000 + 1 * p.val = 10000 * t.val + p.val; rw [e00]; omega
    | ⟨1, _⟩ => show win1_0.index t (1 : Fin 2) * 64 + 1 * k.val = k.val; rw [e01]; omega
  · show V c main_v22 (((cfg1.win 1).blk t).view.emb (ix2 p k)) = V c main_v22 (ix2 (⟨10000 * t.val + p.val, hrow⟩ : Fin 50000) k)
    refine congrArg (V c main_v22) (funext fun a => Fin.ext ?_)
    match a with
    | ⟨0, _⟩ => show win1_1.index t (0 : Fin 2) * 10000 + 1 * p.val = 10000 * t.val + p.val; rw [e10]; omega
    | ⟨1, _⟩ => show win1_1.index t (1 : Fin 2) * 64 + 1 * k.val = k.val; rw [e11]; omega
  · show V c main_arg3 (((cfg1.win 2).blk t).view.emb (ix2 k q)) = V c main_arg3 (ix2 k q)
    refine congrArg (V c main_arg3) (funext fun a => Fin.ext ?_)
    match a with
    | ⟨0, _⟩ => show win1_2.index t (0 : Fin 2) * 64 + 1 * k.val = k.val; rw [e20]; omega
    | ⟨1, _⟩ => show win1_2.index t (1 : Fin 2) * 64 + 1 * q.val = q.val; rw [e21]; omega
  · show V c main_v4 (((cfg1.win 3).blk t).view.emb (ix2 (0 : Fin 1) q)) = V c main_v4 (ix2 (0 : Fin 1) q)
    refine congrArg (V c main_v4) (funext fun a => Fin.ext ?_)
    match a with
    | ⟨0, _⟩ => show win1_3.index t (0 : Fin 2) * 1 + 1 * (0 : Fin 1).val = (0 : Fin 1).val; rw [e30]; rfl
    | ⟨1, _⟩ => show win1_3.index t (1 : Fin 2) * 64 + 1 * q.val = q.val; rw [e31]; omega

/-- An index of the result array is in point `t`'s block iff each coordinate is in the block's range on its axis. -/
theorem mem_block1 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v23).slice (win1_4.rect t)).set ↔ _
  rw [View.set_slice_whole, Rect.mem_set_unit]
  exact Iff.rfl

/-- The five blocks cover the result array: row `r` is in the block of point `r / 10000`. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hlt : (i 0).val / 10000 < cfg1.N := lt_of_lt_of_eq (by omega : (i 0).val / 10000 < 5) GenP.N_1.symm
  obtain ⟨-, -, -, -, -, -, -, -, e40, e41⟩ := blockIndex1 ⟨(i 0).val / 10000, hlt⟩
  refine ⟨⟨(i 0).val / 10000, hlt⟩, flush1_4 _, ?_⟩
  rw [mem_block1]
  intro a
  match a with
  | ⟨0, _⟩ =>
    show win1_4.index ⟨(i 0).val / 10000, hlt⟩ (0 : Fin 2) * 10000 ≤ (i 0).val ∧ (i 0).val < win1_4.index ⟨(i 0).val / 10000, hlt⟩ (0 : Fin 2) * 10000 + 10000
    rw [e40]
    show (i 0).val / 10000 * 10000 ≤ (i 0).val ∧ (i 0).val < (i 0).val / 10000 * 10000 + 10000
    omega
  | ⟨1, _⟩ =>
    show win1_4.index ⟨(i 0).val / 10000, hlt⟩ (1 : Fin 2) * 64 ≤ (i 1).val ∧ (i 1).val < win1_4.index ⟨(i 0).val / 10000, hlt⟩ (1 : Fin 2) * 64 + 64
    rw [e41]
    omega

/-- THE RESULT ARRAY after the region's five points: the whole-array form of the arrays the region found. -/
theorem final1 (c : Dev nD) :
    (GenP.dat1 (F := Ideal) V c).arrAt 4 cfg1.N
      = Cert.Forms.nodeForm (F := Ideal) (V c main_arg0) (V c main_v22) (V c main_arg3) (V c main_v4) :=
  (GenP.dat1 (F := Ideal) V c).arrAt_eq_of_cover 4 _ (fun t _ => flushed1_eq V c t) cover1

/-! ### Region 3 -/

/-- The printed index maps over the five grid points: the features', the messages' and the result's block index is
    `(t, 0)`; the weights' and the bias row's is `(0, 0)`. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of the whole-array form of the arrays the region found. -/
theorem flushed3_eq (c : Dev nD) (t : Fin cfg3.N) :
    (GenP.dat3 (F := Ideal) V c).flushed 4 t = ((cfg3.win 4).blk t).view.read (Elt Ideal)
      (Cert.Forms.nodeForm (F := Ideal) (V c main_v23) (V c main_v39) (V c main_arg3) (V c main_v4)) := by
  show (cfg3.win 4).cut (grid3.coords t) ((GenP.dat3 V c).after 4 t) = _
  rw [GenP.after3_4]
  unfold GenP.out3_4
  rw [View.canon_unit_zero zeroOffsets]
  simp only [View.ld_unit_zero (S := S10000x64) zeroOffsets, View.ld_unit_zero (S := S64x64) zeroOffsets, View.ld_unit_zero (S := S1x64) zeroOffsets]
  obtain ⟨e00, e01, e10, e11, e20, e21, e30, e31, e40, e41⟩ := blockIndex3 t
  have ht : t.val < 5 := lt_of_lt_of_eq t.isLt GenP.N_3
  funext j
  obtain ⟨p, q, rfl⟩ : ∃ (p : Fin 10000) (q : Fin 64), j = ix2 p q := ⟨j 0, j 1, eq_ix2 j⟩
  have hrow : 10000 * t.val + p.val < 50000 := by have := p.isLt; omega
  have hemb : ((cfg3.win 4).blk t).view.emb (ix2 p q) = ix2 (⟨10000 * t.val + p.val, hrow⟩ : Fin 50000) q := by
    funext a; apply Fin.ext
    match a with
    | ⟨0, _⟩ => show win3_4.index t (0 : Fin 2) * 10000 + 1 * p.val = 10000 * t.val + p.val; rw [e40]; omega
    | ⟨1, _⟩ => show win3_4.index t (1 : Fin 2) * 64 + 1 * q.val = q.val; rw [e41]; omega
  show Gen.k3_pay1 (F := Ideal) (GenP.iblk3 V c 0 t) (GenP.iblk3 V c 1 t) (GenP.iblk3 V c 2 t) (GenP.iblk3 V c 3 t) (ix2 p q)
    = Cert.Forms.nodeForm (F := Ideal) (V c main_v23) (V c main_v39) (V c main_arg3) (V c main_v4) (((cfg3.win 4).blk t).view.emb (ix2 p q))
  rw [hemb, nodeForm_apply]
  refine (payload3_apply (GenP.iblk3 V c 0 t) (GenP.iblk3 V c 1 t) (GenP.iblk3 V c 2 t) (GenP.iblk3 V c 3 t) p q).trans (congrArg leaky (affineAt_congr (fun k => ?_) (fun k => ?_) (fun k => ?_) ?_))
  · show V c main_v23 (((cfg3.win 0).blk t).view.emb (ix2 p k)) = V c main_v23 (ix2 (⟨10000 * t.val + p.val, hrow⟩ : Fin 50000) k)
    refine congrArg (V c main_v23) (funext fun a => Fin.ext ?_)
    match a with
    | ⟨0, _⟩ => show win3_0.index t (0 : Fin 2) * 10000 + 1 * p.val = 10000 * t.val + p.val; rw [e00]; omega
    | ⟨1, _⟩ => show win3_0.index t (1 : Fin 2) * 64 + 1 * k.val = k.val; rw [e01]; omega
  · show V c main_v39 (((cfg3.win 1).blk t).view.emb (ix2 p k)) = V c main_v39 (ix2 (⟨10000 * t.val + p.val, hrow⟩ : Fin 50000) k)
    refine congrArg (V c main_v39) (funext fun a => Fin.ext ?_)
    match a with
    | ⟨0, _⟩ => show win3_1.index t (0 : Fin 2) * 10000 + 1 * p.val = 10000 * t.val + p.val; rw [e10]; omega
    | ⟨1, _⟩ => show win3_1.index t (1 : Fin 2) * 64 + 1 * k.val = k.val; rw [e11]; omega
  · show V c main_arg3 (((cfg3.win 2).blk t).view.emb (ix2 k q)) = V c main_arg3 (ix2 k q)
    refine congrArg (V c main_arg3) (funext fun a => Fin.ext ?_)
    match a with
    | ⟨0, _⟩ => show win3_2.index t (0 : Fin 2) * 64 + 1 * k.val = k.val; rw [e20]; omega
    | ⟨1, _⟩ => show win3_2.index t (1 : Fin 2) * 64 + 1 * q.val = q.val; rw [e21]; omega
  · show V c main_v4 (((cfg3.win 3).blk t).view.emb (ix2 (0 : Fin 1) q)) = V c main_v4 (ix2 (0 : Fin 1) q)
    refine congrArg (V c main_v4) (funext fun a => Fin.ext ?_)
    match a with
    | ⟨0, _⟩ => show win3_3.index t (0 : Fin 2) * 1 + 1 * (0 : Fin 1).val = (0 : Fin 1).val; rw [e30]; rfl
    | ⟨1, _⟩ => show win3_3.index t (1 : Fin 2) * 64 + 1 * q.val = q.val; rw [e31]; omega

/-- An index of the result array is in point `t`'s block iff each coordinate is in the block's range on its axis. -/
theorem mem_block3 (t : Fin cfg3.N) (i : S50000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v40).slice (win3_4.rect t)).set ↔ _
  rw [View.set_slice_whole, Rect.mem_set_unit]
  exact Iff.rfl

/-- The five blocks cover the result array: row `r` is in the block of point `r / 10000`. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hlt : (i 0).val / 10000 < cfg3.N := lt_of_lt_of_eq (by omega : (i 0).val / 10000 < 5) GenP.N_3.symm
  obtain ⟨-, -, -, -, -, -, -, -, e40, e41⟩ := blockIndex3 ⟨(i 0).val / 10000, hlt⟩
  refine ⟨⟨(i 0).val / 10000, hlt⟩, flush3_4 _, ?_⟩
  rw [mem_block3]
  intro a
  match a with
  | ⟨0, _⟩ =>
    show win3_4.index ⟨(i 0).val / 10000, hlt⟩ (0 : Fin 2) * 10000 ≤ (i 0).val ∧ (i 0).val < win3_4.index ⟨(i 0).val / 10000, hlt⟩ (0 : Fin 2) * 10000 + 10000
    rw [e40]
    show (i 0).val / 10000 * 10000 ≤ (i 0).val ∧ (i 0).val < (i 0).val / 10000 * 10000 + 10000
    omega
  | ⟨1, _⟩ =>
    show win3_4.index ⟨(i 0).val / 10000, hlt⟩ (1 : Fin 2) * 64 ≤ (i 1).val ∧ (i 1).val < win3_4.index ⟨(i 0).val / 10000, hlt⟩ (1 : Fin 2) * 64 + 64
    rw [e41]
    omega

/-- THE RESULT ARRAY after the region's five points: the whole-array form of the arrays the region found. -/
theorem final3 (c : Dev nD) :
    (GenP.dat3 (F := Ideal) V c).arrAt 4 cfg3.N
      = Cert.Forms.nodeForm (F := Ideal) (V c main_v23) (V c main_v39) (V c main_arg3) (V c main_v4) :=
  (GenP.dat3 (F := Ideal) V c).arrAt_eq_of_cover 4 _ (fun t _ => flushed3_eq V c t) cover3

/-! ### Region 5 -/

/-- The printed index maps over the five grid points: the features', the messages' and the result's block index is
    `(t, 0)`; the weights' and the bias row's is `(0, 0)`. -/
theorem blockIndex5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- WHAT POINT `t` WRITES BACK is block `t` of the whole-array form of the arrays the region found. -/
theorem flushed5_eq (c : Dev nD) (t : Fin cfg5.N) :
    (GenP.dat5 (F := Ideal) V c).flushed 4 t = ((cfg5.win 4).blk t).view.read (Elt Ideal)
      (Cert.Forms.nodeForm (F := Ideal) (V c main_v40) (V c main_v56) (V c main_arg3) (V c main_v4)) := by
  show (cfg5.win 4).cut (grid5.coords t) ((GenP.dat5 V c).after 4 t) = _
  rw [GenP.after5_4]
  unfold GenP.out5_4
  rw [View.canon_unit_zero zeroOffsets]
  simp only [View.ld_unit_zero (S := S10000x64) zeroOffsets, View.ld_unit_zero (S := S64x64) zeroOffsets, View.ld_unit_zero (S := S1x64) zeroOffsets]
  obtain ⟨e00, e01, e10, e11, e20, e21, e30, e31, e40, e41⟩ := blockIndex5 t
  have ht : t.val < 5 := lt_of_lt_of_eq t.isLt GenP.N_5
  funext j
  obtain ⟨p, q, rfl⟩ : ∃ (p : Fin 10000) (q : Fin 64), j = ix2 p q := ⟨j 0, j 1, eq_ix2 j⟩
  have hrow : 10000 * t.val + p.val < 50000 := by have := p.isLt; omega
  have hemb : ((cfg5.win 4).blk t).view.emb (ix2 p q) = ix2 (⟨10000 * t.val + p.val, hrow⟩ : Fin 50000) q := by
    funext a; apply Fin.ext
    match a with
    | ⟨0, _⟩ => show win5_4.index t (0 : Fin 2) * 10000 + 1 * p.val = 10000 * t.val + p.val; rw [e40]; omega
    | ⟨1, _⟩ => show win5_4.index t (1 : Fin 2) * 64 + 1 * q.val = q.val; rw [e41]; omega
  show Gen.k5_pay1 (F := Ideal) (GenP.iblk5 V c 0 t) (GenP.iblk5 V c 1 t) (GenP.iblk5 V c 2 t) (GenP.iblk5 V c 3 t) (ix2 p q)
    = Cert.Forms.nodeForm (F := Ideal) (V c main_v40) (V c main_v56) (V c main_arg3) (V c main_v4) (((cfg5.win 4).blk t).view.emb (ix2 p q))
  rw [hemb, nodeForm_apply]
  refine (payload5_apply (GenP.iblk5 V c 0 t) (GenP.iblk5 V c 1 t) (GenP.iblk5 V c 2 t) (GenP.iblk5 V c 3 t) p q).trans (congrArg leaky (affineAt_congr (fun k => ?_) (fun k => ?_) (fun k => ?_) ?_))
  · show V c main_v40 (((cfg5.win 0).blk t).view.emb (ix2 p k)) = V c main_v40 (ix2 (⟨10000 * t.val + p.val, hrow⟩ : Fin 50000) k)
    refine congrArg (V c main_v40) (funext fun a => Fin.ext ?_)
    match a with
    | ⟨0, _⟩ => show win5_0.index t (0 : Fin 2) * 10000 + 1 * p.val = 10000 * t.val + p.val; rw [e00]; omega
    | ⟨1, _⟩ => show win5_0.index t (1 : Fin 2) * 64 + 1 * k.val = k.val; rw [e01]; omega
  · show V c main_v56 (((cfg5.win 1).blk t).view.emb (ix2 p k)) = V c main_v56 (ix2 (⟨10000 * t.val + p.val, hrow⟩ : Fin 50000) k)
    refine congrArg (V c main_v56) (funext fun a => Fin.ext ?_)
    match a with
    | ⟨0, _⟩ => show win5_1.index t (0 : Fin 2) * 10000 + 1 * p.val = 10000 * t.val + p.val; rw [e10]; omega
    | ⟨1, _⟩ => show win5_1.index t (1 : Fin 2) * 64 + 1 * k.val = k.val; rw [e11]; omega
  · show V c main_arg3 (((cfg5.win 2).blk t).view.emb (ix2 k q)) = V c main_arg3 (ix2 k q)
    refine congrArg (V c main_arg3) (funext fun a => Fin.ext ?_)
    match a with
    | ⟨0, _⟩ => show win5_2.index t (0 : Fin 2) * 64 + 1 * k.val = k.val; rw [e20]; omega
    | ⟨1, _⟩ => show win5_2.index t (1 : Fin 2) * 64 + 1 * q.val = q.val; rw [e21]; omega
  · show V c main_v4 (((cfg5.win 3).blk t).view.emb (ix2 (0 : Fin 1) q)) = V c main_v4 (ix2 (0 : Fin 1) q)
    refine congrArg (V c main_v4) (funext fun a => Fin.ext ?_)
    match a with
    | ⟨0, _⟩ => show win5_3.index t (0 : Fin 2) * 1 + 1 * (0 : Fin 1).val = (0 : Fin 1).val; rw [e30]; rfl
    | ⟨1, _⟩ => show win5_3.index t (1 : Fin 2) * 64 + 1 * q.val = q.val; rw [e31]; omega

/-- An index of the result array is in point `t`'s block iff each coordinate is in the block's range on its axis. -/
theorem mem_block5 (t : Fin cfg5.N) (i : S50000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v57).slice (win5_4.rect t)).set ↔ _
  rw [View.set_slice_whole, Rect.mem_set_unit]
  exact Iff.rfl

/-- The five blocks cover the result array: row `r` is in the block of point `r / 10000`. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hlt : (i 0).val / 10000 < cfg5.N := lt_of_lt_of_eq (by omega : (i 0).val / 10000 < 5) GenP.N_5.symm
  obtain ⟨-, -, -, -, -, -, -, -, e40, e41⟩ := blockIndex5 ⟨(i 0).val / 10000, hlt⟩
  refine ⟨⟨(i 0).val / 10000, hlt⟩, flush5_4 _, ?_⟩
  rw [mem_block5]
  intro a
  match a with
  | ⟨0, _⟩ =>
    show win5_4.index ⟨(i 0).val / 10000, hlt⟩ (0 : Fin 2) * 10000 ≤ (i 0).val ∧ (i 0).val < win5_4.index ⟨(i 0).val / 10000, hlt⟩ (0 : Fin 2) * 10000 + 10000
    rw [e40]
    show (i 0).val / 10000 * 10000 ≤ (i 0).val ∧ (i 0).val < (i 0).val / 10000 * 10000 + 10000
    omega
  | ⟨1, _⟩ =>
    show win5_4.index ⟨(i 0).val / 10000, hlt⟩ (1 : Fin 2) * 64 ≤ (i 1).val ∧ (i 1).val < win5_4.index ⟨(i 0).val / 10000, hlt⟩ (1 : Fin 2) * 64 + 64
    rw [e41]
    omega

/-- THE RESULT ARRAY after the region's five points: the whole-array form of the arrays the region found. -/
theorem final5 (c : Dev nD) :
    (GenP.dat5 (F := Ideal) V c).arrAt 4 cfg5.N
      = Cert.Forms.nodeForm (F := Ideal) (V c main_v40) (V c main_v56) (V c main_arg3) (V c main_v4) :=
  (GenP.dat5 (F := Ideal) V c).arrAt_eq_of_cover 4 _ (fun t _ => flushed5_eq V c t) cover5

end Cert.KernelIdeal.NodeValue

end
-- ==== Proof.ReadValue.lean ====
/-
  The readout of the network, the last region of the kernel program: for the 50000 nodes, in five blocks of 10000 rows,

      out = (H · W1 + b1) · W2 + b2        H : [50000, 64],  W1 : [64, 128],  b1 : [1, 128],  W2 : [128, 2],  b2 : [1, 2].

  A grid point works on one block of 10000 rows of H together with the whole of W1, b1, W2 and b2: it forms the block's
  product with W1 into a zero accumulator, adds the row b1 to every row, forms the product of that with W2 into a zero
  accumulator and adds the row b2 to every row. The operands pass through a narrower float format before each product;
  over the extended reals a change of format is the identity, so entry (p, q) of the block's result is

      (∑ k < 128, ((∑ l < 64, h[p, l] · W1[l, k]) + b1[0, k]) · W2[k, q]) + b2[0, q],

  which depends on row p of the block only. Entry (r, q) of the whole-array form is the same expression with row r of H.
  Row p of block t is row 10000·t + p of H, and the five blocks of the output tile its 50000 rows (row r lies in block
  r / 10000), so after the five points the output array is the whole-array form of the arrays the region found.
-/
import proofs.«142640_j65085934403702_2_alg».proof.Proof.GenP.KernelIdeal.Frame
import proofs.«142640_j65085934403702_2_alg».proof.Proof.Forms
import Idealize.ShloMosaic.Lib.ValueIdx
import Idealize.ShloMosaic.Lib.Pipeline.Value
import Idealize.ShloMosaic.PureOps.Ideal.Laws

set_option maxRecDepth 16384

noncomputable section

namespace Cert.KernelIdeal.ReadValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The body's result on a block, entry by entry -/

theorem lhsD1_0 (i : S10000x128.Idx) (q : (dot_S10000x64_S64x128_S10000x128_1_0_0_1_n_n).contr.Idx) :
    ((dot_S10000x64_S64x128_S10000x128_1_0_0_1_n_n).lhsIdx i q 0).val = (i 0).val := by
  unfold DotDims.lhsIdx
  rw [dif_neg (show ¬(0 : Fin S10000x64.rank) ∈ (dot_S10000x64_S64x128_S10000x128_1_0_0_1_n_n).lhsBatch by decide), dif_pos (show (0 : Fin S10000x64.rank) ∈ (dot_S10000x64_S64x128_S10000x128_1_0_0_1_n_n).lhsNonContracting by decide)]
  rfl

theorem rhsD1_1 (i : S10000x128.Idx) (q : (dot_S10000x64_S64x128_S10000x128_1_0_0_1_n_n).contr.Idx) :
    ((dot_S10000x64_S64x128_S10000x128_1_0_0_1_n_n).rhsIdx i q 1).val = (i 1).val := by
  unfold DotDims.rhsIdx
  rw [dif_neg (show ¬(1 : Fin S64x128.rank) ∈ (dot_S10000x64_S64x128_S10000x128_1_0_0_1_n_n).rhsBatch by decide), dif_pos (show (1 : Fin S64x128.rank) ∈ (dot_S10000x64_S64x128_S10000x128_1_0_0_1_n_n).rhsNonContracting by decide)]
  rfl

/-- The first product of a block at an entry: row p of the left factor against column k of the right. -/
theorem hidden_apply (a : FVec Ideal S10000x64 .bf16) (w : FVec Ideal S64x128 .bf16) (p : Fin 10000) (k : Fin 128) :
    matmul dot_S10000x64_S64x128_S10000x128_1_0_0_1_n_n none a w (constant S10000x128 .f32 0x00000000#32) (ix2 p k)
      = ∑ l : Fin 64, a (ix2 p l) * w (ix2 l k) := by
  simp only [matmul]
  rw [Ideal.matmul_constant_zero_apply, ← Equiv.sum_comp (contrEquiv1 dot_S10000x64_S64x128_S10000x128_1_0_0_1_n_n 64 rfl rfl).symm]
  refine Finset.sum_congr rfl fun l _ => ?_
  have hl := contrEquiv1_symm_val dot_S10000x64_S64x128_S10000x128_1_0_0_1_n_n 64 rfl rfl l
  have el : (dot_S10000x64_S64x128_S10000x128_1_0_0_1_n_n).lhsIdx (ix2 p k) ((contrEquiv1 dot_S10000x64_S64x128_S10000x128_1_0_0_1_n_n 64 rfl rfl).symm l) = ix2 p l := funext fun a => Fin.ext (by
    match a with
    | ⟨0, _⟩ => exact lhsD1_0 _ _
    | ⟨1, _⟩ => exact ((dot_S10000x64_S64x128_S10000x128_1_0_0_1_n_n).lhsIdx_val_of_single rfl _ _).trans hl)
  have er : (dot_S10000x64_S64x128_S10000x128_1_0_0_1_n_n).rhsIdx (ix2 p k) ((contrEquiv1 dot_S10000x64_S64x128_S10000x128_1_0_0_1_n_n 64 rfl rfl).symm l) = ix2 l k := funext fun a => Fin.ext (by
    match a with
    | ⟨0, _⟩ => exact ((dot_S10000x64_S64x128_S10000x128_1_0_0_1_n_n).rhsIdx_val_of_single rfl _ _).trans hl
    | ⟨1, _⟩ => exact rhsD1_1 _ _)
  rw [el, er]

theorem lhsD2_0 (i : S10000x2.Idx) (q : (dot_S10000x128_S128x2_S10000x2_1_0_0_1_n_n).contr.Idx) :
    ((dot_S10000x128_S128x2_S10000x2_1_0_0_1_n_n).lhsIdx i q 0).val = (i 0).val := by
  unfold DotDims.lhsIdx
  rw [dif_neg (show ¬(0 : Fin S10000x128.rank) ∈ (dot_S10000x128_S128x2_S10000x2_1_0_0_1_n_n).lhsBatch by decide), dif_pos (show (0 : Fin S10000x128.rank) ∈ (dot_S10000x128_S128x2_S10000x2_1_0_0_1_n_n).lhsNonContracting by decide)]
  rfl

theorem rhsD2_1 (i : S10000x2.Idx) (q : (dot_S10000x128_S128x2_S10000x2_1_0_0_1_n_n).contr.Idx) :
    ((dot_S10000x128_S128x2_S10000x2_1_0_0_1_n_n).rhsIdx i q 1).val = (i 1).val := by
  unfold DotDims.rhsIdx
  rw [dif_neg (show ¬(1 : Fin S128x2.rank) ∈ (dot_S10000x128_S128x2_S10000x2_1_0_0_1_n_n).rhsBatch by decide), dif_pos (show (1 : Fin S128x2.rank) ∈ (dot_S10000x128_S128x2_S10000x2_1_0_0_1_n_n).rhsNonContracting by decide)]
  rfl

/-- The second product of a block at an entry. -/
theorem score_apply (y : FVec Ideal S10000x128 .bf16) (w : FVec Ideal S128x2 .bf16) (p : Fin 10000) (q : Fin 2) :
    matmul dot_S10000x128_S128x2_S10000x2_1_0_0_1_n_n none y w (constant S10000x2 .f32 0x00000000#32) (ix2 p q)
      = ∑ k : Fin 128, y (ix2 p k) * w (ix2 k q) := by
  simp only [matmul]
  rw [Ideal.matmul_constant_zero_apply, ← Equiv.sum_comp (contrEquiv1 dot_S10000x128_S128x2_S10000x2_1_0_0_1_n_n 128 rfl rfl).symm]
  refine Finset.sum_congr rfl fun k _ => ?_
  have hk := contrEquiv1_symm_val dot_S10000x128_S128x2_S10000x2_1_0_0_1_n_n 128 rfl rfl k
  have el : (dot_S10000x128_S128x2_S10000x2_1_0_0_1_n_n).lhsIdx (ix2 p q) ((contrEquiv1 dot_S10000x128_S128x2_S10000x2_1_0_0_1_n_n 128 rfl rfl).symm k) = ix2 p k := funext fun a => Fin.ext (by
    match a with
    | ⟨0, _⟩ => exact lhsD2_0 _ _
    | ⟨1, _⟩ => exact ((dot_S10000x128_S128x2_S10000x2_1_0_0_1_n_n).lhsIdx_val_of_single rfl _ _).trans hk)
  have er : (dot_S10000x128_S128x2_S10000x2_1_0_0_1_n_n).rhsIdx (ix2 p q) ((contrEquiv1 dot_S10000x128_S128x2_S10000x2_1_0_0_1_n_n 128 rfl rfl).symm k) = ix2 k q := funext fun a => Fin.ext (by
    match a with
    | ⟨0, _⟩ => exact ((dot_S10000x128_S128x2_S10000x2_1_0_0_1_n_n).rhsIdx_val_of_single rfl _ _).trans hk
    | ⟨1, _⟩ => exact rhsD2_1 _ _)
  rw [el, er]

/-- A one-row matrix copied down the rows of a block, at an entry: the row's entry in that column. -/
theorem bias1_apply (b : FVec Ideal S1x128 .f32) (p : Fin 10000) (k : Fin 128) :
    broadcastTo S10000x128 b broadcasts_S1x128_S10000x128 (ix2 p k) = b (ix2 0 k) :=
  broadcastTo_apply b broadcasts_S1x128_S10000x128 (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

theorem bias2_apply (b : FVec Ideal S1x2 .f32) (p : Fin 10000) (q : Fin 2) :
    broadcastTo S10000x2 b broadcasts_S1x2_S10000x2 (ix2 p q) = b (ix2 0 q) :=
  broadcastTo_apply b broadcasts_S1x2_S10000x2 (ix2 p q) (ix2 0 q) (fun a => match a with
    | ⟨0, _⟩ => by show (0 : Nat) = if (1 : Nat) = 1 then 0 else p.val; rw [if_pos rfl]
    | ⟨1, _⟩ => by show q.val = if (2 : Nat) = 1 then 0 else q.val; rw [if_neg (by decide)])

/-- The body's result on a block, at row p and column q: ((h·W1 + b1)·W2 + b2)[p, q], every rounding the identity. -/
theorem pay_apply (x0 : Vec Ideal S10000x64 .f32) (x1 : Vec Ideal S64x128 .f32) (x2 : Vec Ideal S1x128 .f32) (x3 : Vec Ideal S128x2 .f32)
    (x4 : Vec Ideal S1x2 .f32) (p : Fin 10000) (q : Fin 2) :
    k6_pay1 (F := Ideal) x0 x1 x2 x3 x4 (ix2 p q)
      = (∑ k : Fin 128, ((∑ l : Fin 64, x0 (ix2 p l) * x1 (ix2 l k)) + x2 (ix2 0 k)) * x3 (ix2 k q)) + x4 (ix2 0 q) := by
  unfold k6_pay1
  simp only [shapeCast_self]
  rw [addf_apply, score_apply, bias2_apply]
  refine congrArg (· + x4 (ix2 0 q)) (Finset.sum_congr rfl fun k _ => ?_)
  rw [truncf_apply, truncf_apply, addf_apply, hidden_apply, bias1_apply]
  rfl

/-! ## The whole-array form, entry by entry -/

theorem lhsR1_0 (i : Cert.ReferenceIdeal.S50000x128.Idx) (q : (Cert.ReferenceIdeal.dot_S50000x64_S64x128_S50000x128_1_0_0_1_n_n).contr.Idx) :
    ((Cert.ReferenceIdeal.dot_S50000x64_S64x128_S50000x128_1_0_0_1_n_n).lhsIdx i q 0).val = (i 0).val := by
  unfold DotDims.lhsIdx
  rw [dif_neg (show ¬(0 : Fin Cert.ReferenceIdeal.S50000x64.rank) ∈ (Cert.ReferenceIdeal.dot_S50000x64_S64x128_S50000x128_1_0_0_1_n_n).lhsBatch by decide), dif_pos (show (0 : Fin Cert.ReferenceIdeal.S50000x64.rank) ∈ (Cert.ReferenceIdeal.dot_S50000x64_S64x128_S50000x128_1_0_0_1_n_n).lhsNonContracting by decide)]
  rfl

theorem rhsR1_1 (i : Cert.ReferenceIdeal.S50000x128.Idx) (q : (Cert.ReferenceIdeal.dot_S50000x64_S64x128_S50000x128_1_0_0_1_n_n).contr.Idx) :
    ((Cert.ReferenceIdeal.dot_S50000x64_S64x128_S50000x128_1_0_0_1_n_n).rhsIdx i q 1).val = (i 1).val := by
  unfold DotDims.rhsIdx
  rw [dif_neg (show ¬(1 : Fin Cert.ReferenceIdeal.S64x128.rank) ∈ (Cert.ReferenceIdeal.dot_S50000x64_S64x128_S50000x128_1_0_0_1_n_n).rhsBatch by decide), dif_pos (show (1 : Fin Cert.ReferenceIdeal.S64x128.rank) ∈ (Cert.ReferenceIdeal.dot_S50000x64_S64x128_S50000x128_1_0_0_1_n_n).rhsNonContracting by decide)]
  rfl

/-- The host's first product at an entry. -/
theorem hostHidden_apply (a : FVec Ideal Cert.ReferenceIdeal.S50000x64 .f32) (w : FVec Ideal Cert.ReferenceIdeal.S64x128 .f32) (r : Fin 50000) (k : Fin 128) :
    Host.dotGeneral Cert.ReferenceIdeal.dot_S50000x64_S64x128_S50000x128_1_0_0_1_n_n none a w (ix2 r k) = ∑ l : Fin 64, a (ix2 r l) * w (ix2 l k) := by
  simp only [Host.dotGeneral]
  rw [Ideal.dotGeneral_apply, ← Equiv.sum_comp (contrEquiv1 Cert.ReferenceIdeal.dot_S50000x64_S64x128_S50000x128_1_0_0_1_n_n 64 rfl rfl).symm]
  refine Finset.sum_congr rfl fun l _ => ?_
  have hl := contrEquiv1_symm_val Cert.ReferenceIdeal.dot_S50000x64_S64x128_S50000x128_1_0_0_1_n_n 64 rfl rfl l
  have el : (Cert.ReferenceIdeal.dot_S50000x64_S64x128_S50000x128_1_0_0_1_n_n).lhsIdx (ix2 r k) ((contrEquiv1 Cert.ReferenceIdeal.dot_S50000x64_S64x128_S50000x128_1_0_0_1_n_n 64 rfl rfl).symm l) = ix2 r l := funext fun a => Fin.ext (by
    match a with
    | ⟨0, _⟩ => exact lhsR1_0 _ _
    | ⟨1, _⟩ => exact ((Cert.ReferenceIdeal.dot_S50000x64_S64x128_S50000x128_1_0_0_1_n_n).lhsIdx_val_of_single rfl _ _).trans hl)
  have er : (Cert.ReferenceIdeal.dot_S50000x64_S64x128_S50000x128_1_0_0_1_n_n).rhsIdx (ix2 r k) ((contrEquiv1 Cert.ReferenceIdeal.dot_S50000x64_S64x128_S50000x128_1_0_0_1_n_n 64 rfl rfl).symm l) = ix2 l k := funext fun a => Fin.ext (by
    match a with
    | ⟨0, _⟩ => exact ((Cert.ReferenceIdeal.dot_S50000x64_S64x128_S50000x128_1_0_0_1_n_n).rhsIdx_val_of_single rfl _ _).trans hl
    | ⟨1, _⟩ => exact rhsR1_1 _ _)
  rw [el, er]

theorem lhsR2_0 (i : Cert.ReferenceIdeal.S50000x2.Idx) (q : (Cert.ReferenceIdeal.dot_S50000x128_S128x2_S50000x2_1_0_0_1_n_n).contr.Idx) :
    ((Cert.ReferenceIdeal.dot_S50000x128_S128x2_S50000x2_1_0_0_1_n_n).lhsIdx i q 0).val = (i 0).val := by
  unfold DotDims.lhsIdx
  rw [dif_neg (show ¬(0 : Fin Cert.ReferenceIdeal.S50000x128.rank) ∈ (Cert.ReferenceIdeal.dot_S50000x128_S128x2_S50000x2_1_0_0_1_n_n).lhsBatch by decide), dif_pos (show (0 : Fin Cert.ReferenceIdeal.S50000x128.rank) ∈ (Cert.ReferenceIdeal.dot_S50000x128_S128x2_S50000x2_1_0_0_1_n_n).lhsNonContracting by decide)]
  rfl

theorem rhsR2_1 (i : Cert.ReferenceIdeal.S50000x2.Idx) (q : (Cert.ReferenceIdeal.dot_S50000x128_S128x2_S50000x2_1_0_0_1_n_n).contr.Idx) :
    ((Cert.ReferenceIdeal.dot_S50000x128_S128x2_S50000x2_1_0_0_1_n_n).rhsIdx i q 1).val = (i 1).val := by
  unfold DotDims.rhsIdx
  rw [dif_neg (show ¬(1 : Fin Cert.ReferenceIdeal.S128x2.rank) ∈ (Cert.ReferenceIdeal.dot_S50000x128_S128x2_S50000x2_1_0_0_1_n_n).rhsBatch by decide), dif_pos (show (1 : Fin Cert.ReferenceIdeal.S128x2.rank) ∈ (Cert.ReferenceIdeal.dot_S50000x128_S128x2_S50000x2_1_0_0_1_n_n).rhsNonContracting by decide)]
  rfl

/-- The host's second product at an entry. -/
theorem hostScore_apply (y : FVec Ideal Cert.ReferenceIdeal.S50000x128 .f32) (w : FVec Ideal Cert.ReferenceIdeal.S128x2 .f32) (r : Fin 50000) (q : Fin 2) :
    Host.dotGeneral Cert.ReferenceIdeal.dot_S50000x128_S128x2_S50000x2_1_0_0_1_n_n none y w (ix2 r q) = ∑ k : Fin 128, y (ix2 r k) * w (ix2 k q) := by
  simp only [Host.dotGeneral]
  rw [Ideal.dotGeneral_apply, ← Equiv.sum_comp (contrEquiv1 Cert.ReferenceIdeal.dot_S50000x128_S128x2_S50000x2_1_0_0_1_n_n 128 rfl rfl).symm]
  refine Finset.sum_congr rfl fun k _ => ?_
  have hk := contrEquiv1_symm_val Cert.ReferenceIdeal.dot_S50000x128_S128x2_S50000x2_1_0_0_1_n_n 128 rfl rfl k
  have el : (Cert.ReferenceIdeal.dot_S50000x128_S128x2_S50000x2_1_0_0_1_n_n).lhsIdx (ix2 r q) ((contrEquiv1 Cert.ReferenceIdeal.dot_S50000x128_S128x2_S50000x2_1_0_0_1_n_n 128 rfl rfl).symm k) = ix2 r k := funext fun a => Fin.ext (by
    match a with
    | ⟨0, _⟩ => exact lhsR2_0 _ _
    | ⟨1, _⟩ => exact ((Cert.ReferenceIdeal.dot_S50000x128_S128x2_S50000x2_1_0_0_1_n_n).lhsIdx_val_of_single rfl _ _).trans hk)
  have er : (Cert.ReferenceIdeal.dot_S50000x128_S128x2_S50000x2_1_0_0_1_n_n).rhsIdx (ix2 r q) ((contrEquiv1 Cert.ReferenceIdeal.dot_S50000x128_S128x2_S50000x2_1_0_0_1_n_n 128 rfl rfl).symm k) = ix2 k q := funext fun a => Fin.ext (by
    match a with
    | ⟨0, _⟩ => exact ((Cert.ReferenceIdeal.dot_S50000x128_S128x2_S50000x2_1_0_0_1_n_n).rhsIdx_val_of_single rfl _ _).trans hk
    | ⟨1, _⟩ => exact rhsR2_1 _ _)
  rw [el, er]

/-- The host's broadcast of a one-row matrix along the rows, at an entry. -/
theorem hostBias1_apply (b : FVec Ideal Cert.ReferenceIdeal.S1x128 .f32) (r : Fin 50000) (k : Fin 128) :
    broadcastInDim Cert.ReferenceIdeal.S50000x128 ![0, 1] Cert.ReferenceIdeal.Facts₀.bcast_S1x128_S50000x128_0_1 b (ix2 r k) = b (ix2 0 k) :=
  broadcastInDim_apply _ Cert.ReferenceIdeal.Facts₀.bcast_S1x128_S50000x128_0_1 b (ix2 r k) (ix2 0 k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

theorem hostBias2_apply (b : FVec Ideal Cert.ReferenceIdeal.S1x2 .f32) (r : Fin 50000) (q : Fin 2) :
    broadcastInDim Cert.ReferenceIdeal.S50000x2 ![0, 1] Cert.ReferenceIdeal.Facts₀.bcast_S1x2_S50000x2_0_1 b (ix2 r q) = b (ix2 0 q) :=
  broadcastInDim_apply _ Cert.ReferenceIdeal.Facts₀.bcast_S1x2_S50000x2_0_1 b (ix2 r q) (ix2 0 q) (fun a => match a with
    | ⟨0, _⟩ => by show (0 : Nat) = if (1 : Nat) = 1 then 0 else r.val; rw [if_pos rfl]
    | ⟨1, _⟩ => by show q.val = if (2 : Nat) = 1 then 0 else q.val; rw [if_neg (by decide)])

/-- The readout's whole-array form at row r and column q: ((H·W1 + b1)·W2 + b2)[r, q]. -/
theorem readForm_apply (H : FVec Ideal Cert.ReferenceIdeal.S50000x64 .f32) (W1 : FVec Ideal Cert.ReferenceIdeal.S64x128 .f32)
    (b1 : FVec Ideal Cert.ReferenceIdeal.S1x128 .f32) (W2 : FVec Ideal Cert.ReferenceIdeal.S128x2 .f32) (b2 : FVec Ideal Cert.ReferenceIdeal.S1x2 .f32)
    (r : Fin 50000) (q : Fin 2) :
    Cert.Forms.readForm (F := Ideal) H W1 b1 W2 b2 (ix2 r q)
      = (∑ k : Fin 128, ((∑ l : Fin 64, H (ix2 r l) * W1 (ix2 l k)) + b1 (ix2 0 k)) * W2 (ix2 k q)) + b2 (ix2 0 q) := by
  unfold Cert.Forms.readForm
  rw [addf_apply, hostScore_apply, hostBias2_apply]
  refine congrArg (· + b2 (ix2 0 q)) (Finset.sum_congr rfl fun k _ => ?_)
  rw [addf_apply, hostHidden_apply, hostBias1_apply]

/-! ## From blocks to the array -/

theorem hz : (![0, 0] : Fin 2 → Nat) = fun _ => 0 := funext fun a => by fin_cases a <;> rfl

/-- An entry of the body's result on a block is the entry of the whole-array form in the same column and in the row the
    block's row comes from, once each loaded block is the matching part of its array. -/
theorem block_entry (H : FVec Ideal Cert.ReferenceIdeal.S50000x64 .f32) (W1 : FVec Ideal Cert.ReferenceIdeal.S64x128 .f32)
    (b1 : FVec Ideal Cert.ReferenceIdeal.S1x128 .f32) (W2 : FVec Ideal Cert.ReferenceIdeal.S128x2 .f32) (b2 : FVec Ideal Cert.ReferenceIdeal.S1x2 .f32)
    (x0 : Vec Ideal S10000x64 .f32) (x1 : Vec Ideal S64x128 .f32) (x2 : Vec Ideal S1x128 .f32) (x3 : Vec Ideal S128x2 .f32) (x4 : Vec Ideal S1x2 .f32)
    (p : Fin 10000) (q : Fin 2) (r : Fin 50000)
    (h0 : ∀ l : Fin 64, x0 (ix2 p l) = H (ix2 r l))
    (h1 : ∀ (l : Fin 64) (k : Fin 128), x1 (ix2 l k) = W1 (ix2 l k))
    (h2 : ∀ k : Fin 128, x2 (ix2 0 k) = b1 (ix2 0 k))
    (h3 : ∀ (k : Fin 128) (q : Fin 2), x3 (ix2 k q) = W2 (ix2 k q))
    (h4 : ∀ q : Fin 2, x4 (ix2 0 q) = b2 (ix2 0 q)) :
    k6_pay1 (F := Ideal) x0 x1 x2 x3 x4 (ix2 p q) = Cert.Forms.readForm (F := Ideal) H W1 b1 W2 b2 (ix2 r q) := by
  rw [pay_apply, readForm_apply]
  simp only [h0, h1, h2, h3, h4]

section Region
variable (V : (c : Dev nD) → (b : Ref sig .tc) → Buf (Elt Ideal) ((c : Thread nD τ).loc b))

/-- The printed index maps over the five grid points: the node-feature window moves with the output window, row block by
    row block; the weight and bias windows stay at block (0, 0). -/
theorem idx_facts : ∀ t : Fin cfg6.N,
    win6_0.index t (0 : Fin 2) = win6_5.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) ≤ 4 ∧ win6_5.index t (1 : Fin 2) = 0 :=
  (by decide +kernel : ∀ t : Fin grid6.N, _)

/-- Every one of the five row blocks of the output is some point's. -/
theorem idx_onto : ∀ q0 : Fin 5, ∃ t : Fin cfg6.N, win6_5.index t = ![q0.val, 0] :=
  (by decide +kernel : ∀ q0 : Fin 5, ∃ t : Fin grid6.N, win6_5.index t = ![q0.val, 0])

/-- What point t writes back is block t (rows 10000·t … 10000·t + 9999) of the whole-array form of the arrays the region finds. -/
theorem flushed_eq (c : Dev nD) (t : Fin cfg6.N) :
    (dat6 (F := Ideal) V c).flushed 5 t = ((cfg6.win 5).blk t).view.read (Elt Ideal)
      (Cert.Forms.readForm (F := Ideal) (V c main_v57) (V c main_arg7) (V c main_v5) (V c main_arg9) (V c main_v6)) := by
  show (cfg6.win 5).cut (grid6.coords t) ((dat6 (F := Ideal) V c).after 5 t) = _
  rw [after6_5]
  unfold out6_5
  rw [View.canon_unit_zero hz]
  simp only [View.ld_unit_zero (S := S10000x64) hz, View.ld_unit_zero (S := S64x128) hz, View.ld_unit_zero (S := S1x128) hz,
    View.ld_unit_zero (S := S128x2) hz, View.ld_unit_zero (S := S1x2) hz]
  obtain ⟨e00, e01, e10, e11, e20, e21, e30, e31, e40, e41, e50, e51⟩ := idx_facts t
  funext j
  have hp : (j 0).val < 10000 := (j 0).isLt
  have hq : (j 1).val < 2 := (j 1).isLt
  have hr : win6_5.index t (0 : Fin 2) * 10000 + 1 * (j 0).val < 50000 := by omega
  have hj : (j : S10000x2.Idx) = ix2 (⟨(j 0).val, hp⟩ : Fin 10000) (⟨(j 1).val, hq⟩ : Fin 2) :=
    funext fun a => by match a with | ⟨0, _⟩ => rfl | ⟨1, _⟩ => rfl
  have hi : (((cfg6.win 5).blk t).view.emb j : S50000x2.Idx)
      = ix2 (⟨win6_5.index t (0 : Fin 2) * 10000 + 1 * (j 0).val, hr⟩ : Fin 50000) (⟨(j 1).val, hq⟩ : Fin 2) :=
    funext fun a => Fin.ext (by
      match a with
      | ⟨0, _⟩ => rfl
      | ⟨1, _⟩ => show win6_5.index t (1 : Fin 2) * 2 + 1 * (j 1).val = (j 1).val; omega)
  have h0 : ∀ l : Fin 64, (iblk6 V c 0 t : Vec Ideal S10000x64 .f32) (ix2 (⟨(j 0).val, hp⟩ : Fin 10000) l)
      = (V c main_v57 : FVec Ideal Cert.ReferenceIdeal.S50000x64 .f32) (ix2 (⟨win6_5.index t (0 : Fin 2) * 10000 + 1 * (j 0).val, hr⟩ : Fin 50000) l) := fun l => by
    show V c main_v57 (((cfg6.win 0).blk t).view.emb (ix2 (⟨(j 0).val, hp⟩ : Fin 10000) l)) = _
    refine congrArg (V c main_v57) (funext fun a => Fin.ext ?_)
    match a with
    | ⟨0, _⟩ => show win6_0.index t (0 : Fin 2) * 10000 + 1 * (j 0).val = win6_5.index t (0 : Fin 2) * 10000 + 1 * (j 0).val; omega
    | ⟨1, _⟩ => show win6_0.index t (1 : Fin 2) * 64 + 1 * l.val = l.val; omega
  have h1 : ∀ (l : Fin 64) (k : Fin 128), (iblk6 V c 1 t : Vec Ideal S64x128 .f32) (ix2 l k)
      = (V c main_arg7 : FVec Ideal Cert.ReferenceIdeal.S64x128 .f32) (ix2 l k) := fun l k => by
    show V c main_arg7 (((cfg6.win 1).blk t).view.emb (ix2 l k)) = _
    refine congrArg (V c main_arg7) (funext fun a => Fin.ext ?_)
    match a with
    | ⟨0, _⟩ => show win6_1.index t (0 : Fin 2) * 64 + 1 * l.val = l.val; omega
    | ⟨1, _⟩ => show win6_1.index t (1 : Fin 2) * 128 + 1 * k.val = k.val; omega
  have h2 : ∀ k : Fin 128, (iblk6 V c 2 t : Vec Ideal S1x128 .f32) (ix2 0 k)
      = (V c main_v5 : FVec Ideal Cert.ReferenceIdeal.S1x128 .f32) (ix2 0 k) := fun k => by
    show V c main_v5 (((cfg6.win 2).blk t).view.emb (ix2 0 k)) = _
    refine congrArg (V c main_v5) (funext fun a => Fin.ext ?_)
    match a with
    | ⟨0, _⟩ => show win6_2.index t (0 : Fin 2) * 1 + 1 * 0 = 0; omega
    | ⟨1, _⟩ => show win6_2.index t (1 : Fin 2) * 128 + 1 * k.val = k.val; omega
  have h3 : ∀ (k : Fin 128) (q : Fin 2), (iblk6 V c 3 t : Vec Ideal S128x2 .f32) (ix2 k q)
      = (V c main_arg9 : FVec Ideal Cert.ReferenceIdeal.S128x2 .f32) (ix2 k q) := fun k q => by
    show V c main_arg9 (((cfg6.win 3).blk t).view.emb (ix2 k q)) = _
    refine congrArg (V c main_arg9) (funext fun a => Fin.ext ?_)
    match a with
    | ⟨0, _⟩ => show win6_3.index t (0 : Fin 2) * 128 + 1 * k.val = k.val; omega
    | ⟨1, _⟩ => show win6_3.index t (1 : Fin 2) * 2 + 1 * q.val = q.val; omega
  have h4 : ∀ q : Fin 2, (iblk6 V c 4 t : Vec Ideal S1x2 .f32) (ix2 0 q)
      = (V c main_v6 : FVec Ideal Cert.ReferenceIdeal.S1x2 .f32) (ix2 0 q) := fun q => by
    show V c main_v6 (((cfg6.win 4).blk t).view.emb (ix2 0 q)) = _
    refine congrArg (V c main_v6) (funext fun a => Fin.ext ?_)
    match a with
    | ⟨0, _⟩ => show win6_4.index t (0 : Fin 2) * 1 + 1 * 0 = 0; omega
    | ⟨1, _⟩ => show win6_4.index t (1 : Fin 2) * 2 + 1 * q.val = q.val; omega
  show k6_pay1 (F := Ideal) (iblk6 V c 0 t) (iblk6 V c 1 t) (iblk6 V c 2 t) (iblk6 V c 3 t) (iblk6 V c 4 t) j
      = Cert.Forms.readForm (F := Ideal) (V c main_v57) (V c main_arg7) (V c main_v5) (V c main_arg9) (V c main_v6) (((cfg6.win 5).blk t).view.emb j)
  rw [hi]
  refine (congrArg (k6_pay1 (F := Ideal) (iblk6 V c 0 t) (iblk6 V c 1 t) (iblk6 V c 2 t) (iblk6 V c 3 t) (iblk6 V c 4 t)) hj).trans ?_
  exact block_entry (V c main_v57) (V c main_arg7) (V c main_v5) (V c main_arg9) (V c main_v6)
    (iblk6 V c 0 t) (iblk6 V c 1 t) (iblk6 V c 2 t) (iblk6 V c 3 t) (iblk6 V c 4 t)
    ⟨(j 0).val, hp⟩ ⟨(j 1).val, hq⟩ ⟨win6_5.index t (0 : Fin 2) * 10000 + 1 * (j 0).val, hr⟩ h0 h1 h2 h3 h4

/-- An index of the output array is in point t's block iff each coordinate is in the block's range on its axis. -/
theorem mem_blk (t : Fin cfg6.N) (i : S50000x2.Idx) :
    i ∈ ((cfg6.win 5).blk t).view.set ↔ ∀ a : Fin 2, win6_5.index t a * S10000x2.size a ≤ (i a).val ∧ (i a).val < win6_5.index t a * S10000x2.size a + S10000x2.size a := by
  show i ∈ ((View.whole main_v58).slice (win6_5.rect t)).set ↔ _
  rw [View.set_slice_whole, Rect.mem_set_unit]
  exact Iff.rfl

/-- Every index of the output array is in the block of the point its row block names: row r is in block r / 10000. -/
theorem covered (i : S50000x2.Idx) : ∃ t : Fin cfg6.N, (cfg6.win 5).flush t = true ∧ i ∈ ((cfg6.win 5).blk t).view.set := by
  have hi0 : (i 0).val < 50000 := (i 0).isLt
  have hi1 : (i 1).val < 2 := (i 1).isLt
  obtain ⟨t, ht⟩ := idx_onto ⟨(i 0).val / 10000, by omega⟩
  have q0 : win6_5.index t (0 : Fin 2) = (i 0).val / 10000 := congrFun ht 0
  have q1 : win6_5.index t (1 : Fin 2) = 0 := congrFun ht 1
  refine ⟨t, flush6_5 t, ?_⟩
  rw [mem_blk]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 2 ≤ (i 1).val ∧ (i 1).val < win6_5.index t (1 : Fin 2) * 2 + 2; omega

/-- The readout region's output array after all five grid points is the whole-array form of the arrays the region found. -/
theorem final6 (c : Dev nD) : (dat6 (F := Ideal) V c).arrAt 5 cfg6.N
    = Cert.Forms.readForm (F := Ideal) (V c main_v57) (V c main_arg7) (V c main_v5) (V c main_arg9) (V c main_v6) :=
  (dat6 (F := Ideal) V c).arrAt_eq_of_cover 5 _ (fun t _ => flushed_eq V c t) covered

end Region

end Cert.KernelIdeal.ReadValue

end
-- ==== Proof.RefValue.lean ====
/-
  The idealized reference program's result is the whole network `netForm` of its argument arrays: its run's composed
  term — three message-passing layers and the readout, spelt operation by operation — is that expression, with each
  bias vector made a one-row matrix by the host's broadcast.
-/
import proofs.«142640_j65085934403702_2_alg».proof.Proof.Gen.ReferenceIdeal.Run
import proofs.«142640_j65085934403702_2_alg».proof.Proof.Forms

set_option maxRecDepth 16384

noncomputable section

namespace Cert.ReferenceIdeal.RefValue

open Cert.ReferenceIdeal Cert.Forms Idealize.ShloMosaic Idealize.ShloMosaic.TcCoe Idealize.SL.Sem

/-- The reference's result, as the network of its arguments. -/
theorem res_eq (m : (ℓ : Loc nD τ sig) → Buf (Elt Ideal) ℓ) (c : Dev nD) :
    Cert.ReferenceIdeal.Value.res_main_v107 (F := Ideal) m c =
      netForm (F := Ideal) row64 row128 row2
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  unfold Cert.ReferenceIdeal.Value.res_main_v107
  rfl

end Cert.ReferenceIdeal.RefValue

end
-- ==== Proof.lean ====
/-
  A three-layer message-passing network on a graph of 50000 nodes and 800000 edges, then a two-layer readout, computed
  two ways: by seven kernel regions among stretches of host operations, and by host operations alone.

  Per layer: the node rows at the edges' sources are gathered; each edge's message is max(h_src + (e · We + be), 0) with
  e the edge's 16 attributes; the messages are summed into their destination rows; the node update is
  leaky(((1 · h) + aggr) · Wn + bn) with leaky(z) = z for z ≥ 0 and 0.01 · z otherwise. The readout is
  (h · W1 + b1) · W2 + b2. The kernels compute the three dense parts block of rows by block of rows (8000 edges or 10000
  nodes at a time, the weights whole), with products accumulated from zero and narrowings to a shorter float format that
  are the identity on extended reals. A block of rows of a row-wise expression depends on the same rows of its
  operands only, so the blocks a region writes back tile its output array with exactly the whole-array expression of
  the arrays the region found; a matrix product accumulated from zero is the sum over the contracted axis, which is
  what the host's product is. The gathers, the sums by destination and the slices are the same host operations in both
  programs. Followed segment by segment from the launch arrays, both results are one expression of the arguments
  (`Cert.Forms.netForm`); the only difference of spelling — a bias vector made a one-row matrix by a reshape or by a
  broadcast along a new unit axis — is no difference index by index. No law that needs finite values is used: the two
  sides are the same sums and products term by term, so the precondition is never opened.

  The frames are the frame certificates of the two kernel programs and, for the reference, its run with the result
  dropped; the idealization rewrote no operation, so there is nothing to preserve.
-/
import proofs.«142640_j65085934403702_2_alg».proof.Defs
import proofs.«142640_j65085934403702_2_alg».proof.Proof.Gen.Kernel
import proofs.«142640_j65085934403702_2_alg».proof.Proof.Gen.KernelIdeal
import proofs.«142640_j65085934403702_2_alg».proof.Proof.Gen.ReferenceIdeal
import proofs.«142640_j65085934403702_2_alg».proof.Proof.Gen.Pre_finite_inputs
import proofs.«142640_j65085934403702_2_alg».proof.Proof.Gen.ReferenceIdeal.Run
import proofs.«142640_j65085934403702_2_alg».proof.Proof.GenP.Kernel.Frame
import proofs.«142640_j65085934403702_2_alg».proof.Proof.GenP.KernelIdeal.Frame
import proofs.«142640_j65085934403702_2_alg».proof.Proof.KernelRun
import proofs.«142640_j65085934403702_2_alg».proof.Proof.Chain
import proofs.«142640_j65085934403702_2_alg».proof.Proof.EdgeValue
import proofs.«142640_j65085934403702_2_alg».proof.Proof.NodeValue
import proofs.«142640_j65085934403702_2_alg».proof.Proof.ReadValue
import proofs.«142640_j65085934403702_2_alg».proof.Proof.RefValue
import Idealize.ShloMosaic.Adequacy
import Idealize.ShloMosaic.Init

set_option maxRecDepth 16384

noncomputable section

namespace Cert.Proof

open Idealize.ShloMosaic Idealize.SL.Sem Cert.Forms

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the whole network of the arguments in their result buffer. -/
theorem algebraic : Cert.algebraic_KernelIdeal_ReferenceIdeal := by
  intro m ρ m' ρ' _ hagree
  refine ⟨fun c => netForm (F := Ideal) row64 row128 row2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c Cert.KernelIdeal.EdgeValue.final0 Cert.KernelIdeal.NodeValue.final1
          Cert.KernelIdeal.EdgeValue.final2 Cert.KernelIdeal.NodeValue.final3 Cert.KernelIdeal.EdgeValue.final4
          Cert.KernelIdeal.NodeValue.final5 Cert.KernelIdeal.ReadValue.final6), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefValue.res_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
